-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S256 : Shape := ⟨1, ![256]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S128x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S2x10000x10000 .f32) (main_arg2 : FVec F S128x128 .f32) (main_arg3 : FVec F S128 .f32) (main_arg4 : FVec F S256 .f32) (main_arg5 : FVec F S256 .f32) (main_arg6 : FVec F S256x128 .f32) (main_arg7 : FVec F S128 .f32) (main_arg8 : FVec F S128x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S256 : Shape := ⟨1, ![256]⟩
abbrev S256x128 : Shape := ⟨2, ![256, 128]⟩
abbrev S128x64 : Shape := ⟨2, ![128, 64]⟩
abbrev S64 : Shape := ⟨1, ![64]⟩
abbrev S1x128 : Shape := ⟨2, ![1, 128]⟩
abbrev S1x256 : Shape := ⟨2, ![1, 256]⟩
abbrev S1x64 : Shape := ⟨2, ![1, 64]⟩
abbrev S10000x64 : Shape := ⟨2, ![10000, 64]⟩
abbrev S1x400x10000 : Shape := ⟨3, ![1, 400, 10000]⟩
abbrev S400x64 : Shape := ⟨2, ![400, 64]⟩
abbrev S400x10000 : Shape := ⟨2, ![400, 10000]⟩
abbrev S400x128 : Shape := ⟨2, ![400, 128]⟩
abbrev S400x256 : Shape := ⟨2, ![400, 256]⟩
abbrev S400 : Shape := ⟨1, ![400]⟩
abbrev S400x1 : Shape := ⟨2, ![400, 1]⟩

abbrev nBuf : Space → Nat
  | .hbm => 16
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x128, .f32⟩
  | .hbm, ⟨11, _⟩ => ⟨S1x256, .f32⟩
  | .hbm, ⟨12, _⟩ => ⟨S1x256, .f32⟩
  | .hbm, ⟨13, _⟩ => ⟨S1x128, .f32⟩
  | .hbm, ⟨14, _⟩ => ⟨S1x64, .f32⟩
  | .hbm, ⟨15, _⟩ => ⟨S10000x64, .f32⟩
  | .local _ .vmem, ⟨0, _⟩ => ⟨S10000x128, .f32⟩
  | .local _ .vmem, ⟨1, _⟩ => ⟨S1x400x10000, .f32⟩
  | .local _ .vmem, ⟨2, _⟩ => ⟨S1x400x10000, .f32⟩
  | .local _ .vmem, ⟨3, _⟩ => ⟨S128x128, .f32⟩
  | .local _ .vmem, ⟨4, _⟩ => ⟨S1x128, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S10000x128, .f32⟩
  | .local _ .vmem, ⟨14, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v9 : BitVec 32 := Scalar.muli arg0 c400_i32
  let v14 : Index := Scalar.indexCast v9
  let c0_8 : Index := 0#32
  ![v14.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c25_i32 : BitVec 32 := 25#32
  let v0 : BitVec 1 := Scalar.cmpi .sge arg0 c25_i32
  let c1_i32 : BitVec 32 := 1#32
  let c0_i32 : BitVec 32 := 0#32
  let v1 : BitVec 32 := Scalar.select v0 c1_i32 c0_i32
  let c25_i32_0 : BitVec 32 := 25#32
  let v2 : BitVec 1 := Scalar.cmpi .sge arg0 c25_i32_0
  let c25_i32_1 : BitVec 32 := 25#32
  let v3 : BitVec 32 := Scalar.subi arg0 c25_i32_1
  let v4 : BitVec 32 := Scalar.select v2 v3 arg0
  let c0_i32_2 : BitVec 32 := 0#32
  let c0_i32_3 : BitVec 32 := 0#32
  ![v1.toNat, v4.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c25_i32 : BitVec 32 := 25#32
  let v0 : BitVec 1 := Scalar.cmpi .sge arg0 c25_i32
  let c25_i32_0 : BitVec 32 := 25#32
  let v1 : BitVec 32 := Scalar.subi arg0 c25_i32_0
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  shapeCasts_S256_S1x256 : S256.ShapeCasts S1x256
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  h_S400x128 : 0 < S400x128.numel
  concatenates_S400x128_S400x128_S400x256_d1 : Shape.Concatenates [S400x128, S400x128] S400x256 1
  reduces_S400x256_S400 : S400x256.Reduces [1] S400
  shapeCasts_S400_S400x1 : S400.ShapeCasts S400x1
  broadcasts_S400x1_S400x256 : S400x1.Broadcasts S400x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  broadcasts_S1x128_S400x128 : S1x128.Broadcasts S400x128
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x256_S256x128_S400x128_1_0_0_1_n_n_wf : DotDims.WF S400x256 S256x128 S400x128 [1] [0] [0] [1] [] []
  dot_S400x128_S128x64_S400x64_1_0_0_1_n_n_wf : DotDims.WF S400x128 S128x64 S400x64 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x10000.size a ≤ S2x10000x10000.size a
  hwx0_1 : ∀ i : grid0.Coords, EltTy.bits .f32 = 32 ∨ (Rect.block (s := S2x10000x10000) S1x400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x64.size a ≤ S10000x64.size a
  hwx0_10 : ∀ i : grid0.Coords, EltTy.bits .f32 = 32 ∨ (Rect.block (s := S10000x64) S400x64.size (cc0_transform_10 i) (hinb0_10 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S400x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S256 : Shape := ⟨1, ![256]⟩
abbrev S256x128 : Shape := ⟨2, ![256, 128]⟩
abbrev S128x64 : Shape := ⟨2, ![128, 64]⟩
abbrev S64 : Shape := ⟨1, ![64]⟩
abbrev S1x128 : Shape := ⟨2, ![1, 128]⟩
abbrev S1x10000x10000 : Shape := ⟨3, ![1, 10000, 10000]⟩
abbrev S10000x10000 : Shape := ⟨2, ![10000, 10000]⟩
abbrev S10000x256 : Shape := ⟨2, ![10000, 256]⟩
abbrev S_ : Shape := ⟨0, ![]⟩
abbrev S10000 : Shape := ⟨1, ![10000]⟩
abbrev S10000x1 : Shape := ⟨2, ![10000, 1]⟩
abbrev S1x256 : Shape := ⟨2, ![1, 256]⟩
abbrev S10000x64 : Shape := ⟨2, ![10000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S1x10000x10000, .f32⟩
  | .hbm, ⟨15, _⟩ => ⟨S10000x10000, .f32⟩
  | .hbm, ⟨16, _⟩ => ⟨S10000x128, .f32⟩
  | .hbm, ⟨17, _⟩ => ⟨S10000x256, .f32⟩
  | .hbm, ⟨18, _⟩ => ⟨S_, .f32⟩
  | .hbm, ⟨19, _⟩ => ⟨S10000, .f32⟩
  | .hbm, ⟨20, _⟩ => ⟨S10000x1, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S_, .i32⟩
  | .hbm, ⟨25, _⟩ => ⟨S_, .f32⟩
  | .hbm, ⟨26, _⟩ => ⟨S10000, .f32⟩
  | .hbm, ⟨27, _⟩ => ⟨S10000x1, .f32⟩
  | .hbm, ⟨28, _⟩ => ⟨S_, .f32⟩
  | .hbm, ⟨29, _⟩ => ⟨S10000x1, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S10000, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S10000x1, .f32⟩
  | .hbm, ⟨47, _⟩ => ⟨S10000x1, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000x1, .f32⟩
  | .hbm, ⟨52, _⟩ => ⟨S10000x1, .f32⟩
  | .hbm, ⟨53, _⟩ => ⟨S10000x1, .f32⟩
  | .hbm, ⟨54, _⟩ => ⟨S10000x256, .f32⟩
  | .hbm, ⟨55, _⟩ => ⟨S10000x256, .f32⟩
  | .hbm, ⟨56, _⟩ => ⟨S1x256, .f32⟩
  | .hbm, ⟨57, _⟩ => ⟨S10000x256, .f32⟩
  | .hbm, ⟨58, _⟩ => ⟨S10000x256, .f32⟩
  | .hbm, ⟨59, _⟩ => ⟨S1x256, .f32⟩
  | .hbm, ⟨60, _⟩ => ⟨S10000x256, .f32⟩
  | .hbm, ⟨61, _⟩ => ⟨S10000x256, .f32⟩
  | .hbm, ⟨62, _⟩ => ⟨S_, .f32⟩
  | .hbm, ⟨63, _⟩ => ⟨S10000x256, .f32⟩
  | .hbm, ⟨64, _⟩ => ⟨S10000x256, .f32⟩
  | .hbm, ⟨65, _⟩ => ⟨S1x10000x10000, .f32⟩
  | .hbm, ⟨66, _⟩ => ⟨S10000x10000, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S10000x64, .f32⟩
  | .hbm, ⟨76, _⟩ => ⟨S1x64, .f32⟩
  | .hbm, ⟨77, _⟩ => ⟨S10000x64, .f32⟩
  | .hbm, ⟨78, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call1_cst : Ref sig .tc := ⟨.hbm, 62, rfl⟩
abbrev main_call1_v0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call2_cst : Ref sig .tc := ⟨.hbm, 72, rfl⟩
abbrev main_call2_v0 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x10000x10000_S1x10000x10000_0_0_0 : S2x10000x10000.Slices ![0, 0, 0] S1x10000x10000
  shapeCasts_S1x10000x10000_S10000x10000 : S1x10000x10000.ShapeCasts S10000x10000
  concatenates_S10000x128_S10000x128_S10000x256_d1 : Shape.Concatenates [S10000x128, S10000x128] S10000x256 1
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S2x10000x10000_S1x10000x10000_1_0_0 : S2x10000x10000.Slices ![1, 0, 0] S1x10000x10000
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.RefRunOps.lean ====
/- The reference program's @main as the list of its 69 host operations, the four outlined
   functions (the variance with its nested select, the two rectifiers) unfolded at their call sites
   over the calls' buffer records. -/
import proofs.«131238_g51342039056724_cont_sun_c4_361_21_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two 10000×128 arrays side by side, as one 10000×256 array: the concatenation's function under a
    name, its two operands plain arguments (inside the list of shape-tagged pairs an operand is an
    argument the side condition's type depends on, which rewriting leaves alone). -/
def catF (a b : (⟨S10000x128, .f32⟩ : BufTy).Contents (Elt F)) : (⟨S10000x256, .f32⟩ : BufTy).Contents (Elt F) :=
  concatenate S10000x256 1 [⟨S10000x128, a⟩, ⟨S10000x128, b⟩] concatenates_S10000x128_S10000x128_S10000x256_d1

/-- @main's operations in order, the calls unfolded: fifteen of @main's own, the variance's twenty
    with the select's three, fourteen of @main's, the rectifier's three, seven of @main's, the second
    rectifier's three, and @main's last four. -/
abbrev ops : List (HloOp τ sig (Elt F)) :=
  [
    binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S10000x128 ![0, 1] bcast_S1x128_S10000x128_0_1 : (⟨S1x128, .f32⟩ : BufTy).Contents (Elt F) → (⟨S10000x128, .f32⟩ : BufTy).Contents (Elt F)),
    binary main_v0 main_v2 main_v3 (addf : (⟨S10000x128, .f32⟩ : BufTy).Contents (Elt F) → (⟨S10000x128, .f32⟩ : BufTy).Contents (Elt F) → (⟨S10000x128, .f32⟩ : BufTy).Contents (Elt F)),
    unary main_arg1 main_v4 ((extractStridedSlice S1x10000x10000 ![0, 0, 0] · slices_S2x10000x10000_S1x10000x10000_0_0_0) : (⟨S2x10000x10000, .f32⟩ : BufTy).Contents (Elt F) → (⟨S1x10000x10000, .f32⟩ : BufTy).Contents (Elt F)),
    reshape main_v4 main_v5 rfl shapeCasts_S1x10000x10000_S10000x10000,
    binary main_v5 main_v3 main_v6 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v3 main_v6 main_v7 (catF : (⟨S10000x128, .f32⟩ : BufTy).Contents (Elt F) → (⟨S10000x128, .f32⟩ : BufTy).Contents (Elt F) → (⟨S10000x256, .f32⟩ : BufTy).Contents (Elt F)),
    nullary main_cst (constant S_ .f32 0x00000000#32),
    binary main_v7 main_cst main_v8 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v8 main_v9 (broadcastInDim S10000x1 ![0] bcast_S10000_S10000x1_0 : (⟨S10000, .f32⟩ : BufTy).Contents (Elt F) → (⟨S10000x1, .f32⟩ : BufTy).Contents (Elt F)),
    nullary main_cst_0 (constant S_ .f32 0x43800000#32),
    unary main_cst_0 main_v10 (broadcastInDim S10000x1 ![] bcast_S_S10000x1 : (⟨S_, .f32⟩ : BufTy).Contents (Elt F) → (⟨S10000x1, .f32⟩ : BufTy).Contents (Elt F)),
    binary main_v9 main_v10 main_v11 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    TRef.nullary main_call0.cst (constant S_ .f32 0x00000000#32),
    TRef.binary (.of main_v7 : TRef sig ⟨S10000x256, .f32⟩) main_call0.cst main_call0.v0 (fun x v => Host.reduceAdd x v reducesTo_S10000x256_S10000_d1 h_S_),
    TRef.unary main_call0.v0 main_call0.v1 (broadcastInDim S10000x1 ![0] bcast_S10000_S10000x1_0),
    TRef.nullary main_call0.cst_0 (constant S_ .f32 0x43800000#32),
    TRef.unary main_call0.cst_0 main_call0.v2 (broadcastInDim S10000x1 ![] bcast_S_S10000x1),
    TRef.binary main_call0.v1 main_call0.v2 main_call0.v3 Host.divf,
    TRef.unary main_call0.v3 main_call0.v4 (broadcastInDim S10000x256 ![0, 1] bcast_S10000x1_S10000x256_0_1),
    TRef.binary (.of main_v7 : TRef sig ⟨S10000x256, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x256_S10000_d1 h_S_),
    TRef.unary main_call0.v9 main_call0.v10 (broadcastInDim S10000x1 ![0] bcast_S10000_S10000x1_0),
    TRef.unary main_call0.v8 main_call0.v11 (broadcastInDim S10000x1 ![] bcast_S_S10000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S10000x1 ![] bcast_S_S10000x1),
    TRef.ternary main_call0.v13 main_call0.v12 main_call0.call0.v1 main_call0.call0.v2 (fun p a b => select (broadcastInDim S10000x1 ![] bcast_S_S10000x1 p) a b),
    unary main_v11 main_v13 (broadcastInDim S10000x256 ![0, 1] bcast_S10000x1_S10000x256_0_1 : (⟨S10000x1, .f32⟩ : BufTy).Contents (Elt F) → (⟨S10000x256, .f32⟩ : BufTy).Contents (Elt F)),
    binary main_v7 main_v13 main_v14 (subf : (⟨S10000x256, .f32⟩ : BufTy).Contents (Elt F) → (⟨S10000x256, .f32⟩ : BufTy).Contents (Elt F) → (⟨S10000x256, .f32⟩ : BufTy).Contents (Elt F)),
    nullary main_cst_1 (constant S_ .f32 0x3727C5AC#32),
    unary main_cst_1 main_v15 (broadcastInDim S10000x1 ![] bcast_S_S10000x1 : (⟨S_, .f32⟩ : BufTy).Contents (Elt F) → (⟨S10000x1, .f32⟩ : BufTy).Contents (Elt F)),
    binary main_v12 main_v15 main_v16 (addf : (⟨S10000x1, .f32⟩ : BufTy).Contents (Elt F) → (⟨S10000x1, .f32⟩ : BufTy).Contents (Elt F) → (⟨S10000x1, .f32⟩ : BufTy).Contents (Elt F)),
    unary main_v16 main_v17 (Host.sqrt : (⟨S10000x1, .f32⟩ : BufTy).Contents (Elt F) → (⟨S10000x1, .f32⟩ : BufTy).Contents (Elt F)),
    unary main_v17 main_v18 (broadcastInDim S10000x256 ![0, 1] bcast_S10000x1_S10000x256_0_1 : (⟨S10000x1, .f32⟩ : BufTy).Contents (Elt F) → (⟨S10000x256, .f32⟩ : BufTy).Contents (Elt F)),
    binary main_v14 main_v18 main_v19 (Host.divf : (⟨S10000x256, .f32⟩ : BufTy).Contents (Elt F) → (⟨S10000x256, .f32⟩ : BufTy).Contents (Elt F) → (⟨S10000x256, .f32⟩ : BufTy).Contents (Elt F)),
    unary main_arg4 main_v20 (broadcastInDim S1x256 ![1] bcast_S256_S1x256_1 : (⟨S256, .f32⟩ : BufTy).Contents (Elt F) → (⟨S1x256, .f32⟩ : BufTy).Contents (Elt F)),
    unary main_v20 main_v21 (broadcastInDim S10000x256 ![0, 1] bcast_S1x256_S10000x256_0_1 : (⟨S1x256, .f32⟩ : BufTy).Contents (Elt F) → (⟨S10000x256, .f32⟩ : BufTy).Contents (Elt F)),
    binary main_v19 main_v21 main_v22 (mulf : (⟨S10000x256, .f32⟩ : BufTy).Contents (Elt F) → (⟨S10000x256, .f32⟩ : BufTy).Contents (Elt F) → (⟨S10000x256, .f32⟩ : BufTy).Contents (Elt F)),
    unary main_arg5 main_v23 (broadcastInDim S1x256 ![1] bcast_S256_S1x256_1 : (⟨S256, .f32⟩ : BufTy).Contents (Elt F) → (⟨S1x256, .f32⟩ : BufTy).Contents (Elt F)),
    unary main_v23 main_v24 (broadcastInDim S10000x256 ![0, 1] bcast_S1x256_S10000x256_0_1 : (⟨S1x256, .f32⟩ : BufTy).Contents (Elt F) → (⟨S10000x256, .f32⟩ : BufTy).Contents (Elt F)),
    binary main_v22 main_v24 main_v25 (addf : (⟨S10000x256, .f32⟩ : BufTy).Contents (Elt F) → (⟨S10000x256, .f32⟩ : BufTy).Contents (Elt F) → (⟨S10000x256, .f32⟩ : BufTy).Contents (Elt F)),
    TRef.nullary main_call1.cst (constant S_ .f32 0x00000000#32),
    TRef.unary main_call1.cst main_call1.v0 (broadcastInDim S10000x256 ![] bcast_S_S10000x256),
    TRef.binary (.of main_v25 : TRef sig ⟨S10000x256, .f32⟩) main_call1.v0 main_call1.v1 maximumf,
    unary main_arg1 main_v27 ((extractStridedSlice S1x10000x10000 ![1, 0, 0] · slices_S2x10000x10000_S1x10000x10000_1_0_0) : (⟨S2x10000x10000, .f32⟩ : BufTy).Contents (Elt F) → (⟨S1x10000x10000, .f32⟩ : BufTy).Contents (Elt F)),
    reshape main_v27 main_v28 rfl shapeCasts_S1x10000x10000_S10000x10000,
    binary main_v26 main_arg6 main_v29 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_arg7 main_v30 (broadcastInDim S1x128 ![1] bcast_S128_S1x128_1 : (⟨S128, .f32⟩ : BufTy).Contents (Elt F) → (⟨S1x128, .f32⟩ : BufTy).Contents (Elt F)),
    unary main_v30 main_v31 (broadcastInDim S10000x128 ![0, 1] bcast_S1x128_S10000x128_0_1 : (⟨S1x128, .f32⟩ : BufTy).Contents (Elt F) → (⟨S10000x128, .f32⟩ : BufTy).Contents (Elt F)),
    binary main_v29 main_v31 main_v32 (addf : (⟨S10000x128, .f32⟩ : BufTy).Contents (Elt F) → (⟨S10000x128, .f32⟩ : BufTy).Contents (Elt F) → (⟨S10000x128, .f32⟩ : BufTy).Contents (Elt F)),
    binary main_v28 main_v32 main_v33 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary main_call2.cst (constant S_ .f32 0x00000000#32),
    TRef.unary main_call2.cst main_call2.v0 (broadcastInDim S10000x128 ![] bcast_S_S10000x128),
    TRef.binary (.of main_v33 : TRef sig ⟨S10000x128, .f32⟩) main_call2.v0 main_call2.v1 maximumf,
    binary main_v34 main_arg8 main_v35 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg9 main_v36 (broadcastInDim S1x64 ![1] bcast_S64_S1x64_1 : (⟨S64, .f32⟩ : BufTy).Contents (Elt F) → (⟨S1x64, .f32⟩ : BufTy).Contents (Elt F)),
    unary main_v36 main_v37 (broadcastInDim S10000x64 ![0, 1] bcast_S1x64_S10000x64_0_1 : (⟨S1x64, .f32⟩ : BufTy).Contents (Elt F) → (⟨S10000x64, .f32⟩ : BufTy).Contents (Elt F)),
    binary main_v35 main_v37 main_v38 (addf : (⟨S10000x64, .f32⟩ : BufTy).Contents (Elt F) → (⟨S10000x64, .f32⟩ : BufTy).Contents (Elt F) → (⟨S10000x64, .f32⟩ : BufTy).Contents (Elt F)) ]

set_option maxRecDepth 4096 in
/-- @main is that straight line, by computation: a program is a tree of requests, sequencing grafts
    the continuation at the leaves, so the functions' bodies unfolded at their calls and the list's
    fold are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub ..⟩

end Cert.ReferenceIdeal.RefValue

end
-- ==== Proof.RefTerm.lean ====
/-
  The reference's result as ONE term of its ten argument arrays, over the extended reals: the host
  operations of the reference's main function in order, the outlined variance (with its guarded select)
  and the two rectifiers written out at their call sites, grouped by stage. Each definition applies the
  same operations, with the same shape facts, as the printed program's lines.
-/
import proofs.«131238_g51342039056724_cont_sun_c4_361_21_alg».proof.ReferenceIdeal
import Idealize.ShloMosaic.PureOps.Ideal

set_option synthInstance.maxSize 4096

noncomputable section

namespace Cert.ReferenceIdeal.RefValue

open Cert.ReferenceIdeal Idealize.ShloMosaic

variable [Cert.ReferenceIdeal.Facts]
open Facts₀ Facts

/-! ## The first layer: `x·W1 + b1` -/

/-- `%0 … %3`: the product, the bias spread over the rows, their sum. -/
def hRef (x : FVec Ideal S10000x128 .f32) (W1 : FVec Ideal S128x128 .f32) (b1 : FVec Ideal S128 .f32) :
    FVec Ideal S10000x128 .f32 :=
  addf (Host.dotGeneral dot_S10000x128_S128x128_S10000x128_1_0_0_1_n_n none x W1)
    (broadcastInDim S10000x128 ![0, 1] bcast_S1x128_S10000x128_0_1 (broadcastInDim S1x128 ![1] bcast_S128_S1x128_1 b1))

/-! ## The two adjacency matrices: a unit slab of the stack, its unit axis dropped -/

/-- `%4, %5`: the first adjacency matrix. -/
def adjRef0 (adjs : FVec Ideal S2x10000x10000 .f32) : FVec Ideal S10000x10000 .f32 :=
  shapeCast S10000x10000 (extractStridedSlice S1x10000x10000 ![0, 0, 0] adjs slices_S2x10000x10000_S1x10000x10000_0_0_0)
    shapeCasts_S1x10000x10000_S10000x10000

/-- `%27, %28`: the second adjacency matrix. -/
def adjRef1 (adjs : FVec Ideal S2x10000x10000 .f32) : FVec Ideal S10000x10000 .f32 :=
  shapeCast S10000x10000 (extractStridedSlice S1x10000x10000 ![1, 0, 0] adjs slices_S2x10000x10000_S1x10000x10000_1_0_0)
    shapeCasts_S1x10000x10000_S10000x10000

/-! ## The concatenation and its row statistics -/

/-- `%6, %7`: the first layer beside its aggregate over the first adjacency matrix. -/
def catRef (h : FVec Ideal S10000x128 .f32) (adjs : FVec Ideal S2x10000x10000 .f32) : FVec Ideal S10000x256 .f32 :=
  concatenate S10000x256 1
    [⟨S10000x128, h⟩,
     ⟨S10000x128, Host.dotGeneral dot_S10000x10000_S10000x128_S10000x128_1_0_0_1_n_n none (adjRef0 adjs) h⟩]
    concatenates_S10000x128_S10000x128_S10000x256_d1

/-- A row sum: the host's reduction over the columns from the zero constant. -/
def sumRef (c : FVec Ideal S10000x256 .f32) : FVec Ideal S10000 .f32 :=
  Host.reduceAdd c (constant (F := Ideal) S_ .f32 0x00000000#32) reducesTo_S10000x256_S10000_d1 h_S_

/-- `%8 … %11` (and the variance function's `%0 … %3`): the row mean, as a column. -/
def meanRef (c : FVec Ideal S10000x256 .f32) : FVec Ideal S10000x1 .f32 :=
  Host.divf (broadcastInDim S10000x1 ![0] bcast_S10000_S10000x1_0 (sumRef c))
    (broadcastInDim S10000x1 ![] bcast_S_S10000x1 (constant (F := Ideal) S_ .f32 0x43800000#32))

/-- The variance function's `%4, %5` (and `%13, %14` of the main function): the deviations from the row mean. -/
def devRef (c : FVec Ideal S10000x256 .f32) : FVec Ideal S10000x256 .f32 :=
  subf c (broadcastInDim S10000x256 ![0, 1] bcast_S10000x1_S10000x256_0_1 (meanRef c))

/-- The variance function's `%7, %8`: the count `256` less the converted integer zero. -/
def cntRef : FVec Ideal S_ .f32 :=
  subf (constant (F := Ideal) S_ .f32 0x43800000#32) (sitofp (F := Ideal) .f32 (constantI S_ 32 0#32))

/-- The variance function's `%6, %9 … %14`: the row sum of the squared deviations over the count, kept where
    the count is positive and the not-a-number constant elsewhere. -/
def varRef (c : FVec Ideal S10000x256 .f32) : FVec Ideal S10000x1 .f32 :=
  select (broadcastInDim S10000x1 ![] bcast_S_S10000x1 (cmpf .ogt cntRef (constant (F := Ideal) S_ .f32 0x00000000#32)))
    (Host.divf (broadcastInDim S10000x1 ![0] bcast_S10000_S10000x1_0 (sumRef (mulf (devRef c) (devRef c))))
      (broadcastInDim S10000x1 ![] bcast_S_S10000x1 cntRef))
    (broadcastInDim S10000x1 ![] bcast_S_S10000x1 (id (constant (F := Ideal) S_ .f32 0x7FC00000#32)))

/-! ## The layer normalisation, the rectifier and the second product -/

/-- `%13 … %25`: the deviations over the square root of the variance plus the stabiliser, scaled and shifted. -/
def lnRef (c : FVec Ideal S10000x256 .f32) (g bb : FVec Ideal S256 .f32) : FVec Ideal S10000x256 .f32 :=
  addf
    (mulf
      (Host.divf (devRef c)
        (broadcastInDim S10000x256 ![0, 1] bcast_S10000x1_S10000x256_0_1
          (Host.sqrt (addf (varRef c)
            (broadcastInDim S10000x1 ![] bcast_S_S10000x1 (constant (F := Ideal) S_ .f32 0x3727C5AC#32))))))
      (broadcastInDim S10000x256 ![0, 1] bcast_S1x256_S10000x256_0_1 (broadcastInDim S1x256 ![1] bcast_S256_S1x256_1 g)))
    (broadcastInDim S10000x256 ![0, 1] bcast_S1x256_S10000x256_0_1 (broadcastInDim S1x256 ![1] bcast_S256_S1x256_1 bb))

/-- `%26`: the rectifier on 256 columns. -/
def relu256 (v : FVec Ideal S10000x256 .f32) : FVec Ideal S10000x256 .f32 :=
  maximumf v (broadcastInDim S10000x256 ![] bcast_S_S10000x256 (constant (F := Ideal) S_ .f32 0x00000000#32))

/-- `%29 … %32`: the second product and its bias. -/
def tRef (r : FVec Ideal S10000x256 .f32) (W2 : FVec Ideal S256x128 .f32) (b2 : FVec Ideal S128 .f32) :
    FVec Ideal S10000x128 .f32 :=
  addf (Host.dotGeneral dot_S10000x256_S256x128_S10000x128_1_0_0_1_n_n none r W2)
    (broadcastInDim S10000x128 ![0, 1] bcast_S1x128_S10000x128_0_1 (broadcastInDim S1x128 ![1] bcast_S128_S1x128_1 b2))

/-! ## The third layer -/

/-- `%33`: the aggregate over the second adjacency matrix. -/
def aggRef (adjs : FVec Ideal S2x10000x10000 .f32) (t : FVec Ideal S10000x128 .f32) : FVec Ideal S10000x128 .f32 :=
  Host.dotGeneral dot_S10000x10000_S10000x128_S10000x128_1_0_0_1_n_n none (adjRef1 adjs) t

/-- `%34`: the rectifier on 128 columns. -/
def relu128 (v : FVec Ideal S10000x128 .f32) : FVec Ideal S10000x128 .f32 :=
  maximumf v (broadcastInDim S10000x128 ![] bcast_S_S10000x128 (constant (F := Ideal) S_ .f32 0x00000000#32))

/-- `%35 … %38`: the last product and its bias. -/
def outRef (h2 : FVec Ideal S10000x128 .f32) (W3 : FVec Ideal S128x64 .f32) (b3 : FVec Ideal S64 .f32) :
    FVec Ideal S10000x64 .f32 :=
  addf (Host.dotGeneral dot_S10000x128_S128x64_S10000x64_1_0_0_1_n_n none h2 W3)
    (broadcastInDim S10000x64 ![0, 1] bcast_S1x64_S10000x64_0_1 (broadcastInDim S1x64 ![1] bcast_S64_S1x64_1 b3))

/-! ## The whole -/

/-- `%32` of the arguments. -/
def tTerm (x : FVec Ideal S10000x128 .f32) (adjs : FVec Ideal S2x10000x10000 .f32) (W1 : FVec Ideal S128x128 .f32)
    (b1 : FVec Ideal S128 .f32) (g bb : FVec Ideal S256 .f32) (W2 : FVec Ideal S256x128 .f32) (b2 : FVec Ideal S128 .f32) :
    FVec Ideal S10000x128 .f32 :=
  tRef (relu256 (lnRef (catRef (hRef x W1 b1) adjs) g bb)) W2 b2

/-- The reference's result `%38` of its ten arguments, in the order of the main function's arguments. -/
def refTerm (x : FVec Ideal S10000x128 .f32) (adjs : FVec Ideal S2x10000x10000 .f32) (W1 : FVec Ideal S128x128 .f32)
    (b1 : FVec Ideal S128 .f32) (g bb : FVec Ideal S256 .f32) (W2 : FVec Ideal S256x128 .f32) (b2 : FVec Ideal S128 .f32)
    (W3 : FVec Ideal S128x64 .f32) (b3 : FVec Ideal S64 .f32) : FVec Ideal S10000x64 .f32 :=
  outRef (relu128 (aggRef adjs (tTerm x adjs W1 b1 g bb W2 b2))) W3 b3

end Cert.ReferenceIdeal.RefValue

end
-- ==== Proof.RefRun.lean ====
/- The reference program's run read back: every weakly fair execution of its main function ends with
   the result buffer at the reference's term of the ten argument arrays, the arguments unchanged. -/
import proofs.«131238_g51342039056724_cont_sun_c4_361_21_alg».proof.Proof.RefRunOps
import proofs.«131238_g51342039056724_cont_sun_c4_361_21_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## What the line leaves at each buffer of the statement

The fold of the sixty-nine operations' results over any contents `V`, read at one buffer: each
operation's result at its own buffer is its function of its operands' contents, at any other buffer
what was there. At an argument nothing is written. At the result the composed term is the
reference's term, stage by stage: the definitions of the stages unfold to the operations' own
functions, and a typed reference's conversion of contents is the identity at a literal reference. -/

set_option maxRecDepth 8192 in
theorem arg0_eq (V : Valuation τ sig (Elt F)) : after ops V (main_arg0 : DevRef τ sig) = V (main_arg0 : DevRef τ sig) := by
  after_results_simp

set_option maxRecDepth 8192 in
theorem arg1_eq (V : Valuation τ sig (Elt F)) : after ops V (main_arg1 : DevRef τ sig) = V (main_arg1 : DevRef τ sig) := by
  after_results_simp

set_option maxRecDepth 8192 in
theorem arg2_eq (V : Valuation τ sig (Elt F)) : after ops V (main_arg2 : DevRef τ sig) = V (main_arg2 : DevRef τ sig) := by
  after_results_simp

set_option maxRecDepth 8192 in
theorem arg3_eq (V : Valuation τ sig (Elt F)) : after ops V (main_arg3 : DevRef τ sig) = V (main_arg3 : DevRef τ sig) := by
  after_results_simp

set_option maxRecDepth 8192 in
theorem arg4_eq (V : Valuation τ sig (Elt F)) : after ops V (main_arg4 : DevRef τ sig) = V (main_arg4 : DevRef τ sig) := by
  after_results_simp

set_option maxRecDepth 8192 in
theorem arg5_eq (V : Valuation τ sig (Elt F)) : after ops V (main_arg5 : DevRef τ sig) = V (main_arg5 : DevRef τ sig) := by
  after_results_simp

set_option maxRecDepth 8192 in
theorem arg6_eq (V : Valuation τ sig (Elt F)) : after ops V (main_arg6 : DevRef τ sig) = V (main_arg6 : DevRef τ sig) := by
  after_results_simp

set_option maxRecDepth 8192 in
theorem arg7_eq (V : Valuation τ sig (Elt F)) : after ops V (main_arg7 : DevRef τ sig) = V (main_arg7 : DevRef τ sig) := by
  after_results_simp

set_option maxRecDepth 8192 in
theorem arg8_eq (V : Valuation τ sig (Elt F)) : after ops V (main_arg8 : DevRef τ sig) = V (main_arg8 : DevRef τ sig) := by
  after_results_simp

set_option maxRecDepth 8192 in
theorem arg9_eq (V : Valuation τ sig (Elt F)) : after ops V (main_arg9 : DevRef τ sig) = V (main_arg9 : DevRef τ sig) := by
  after_results_simp

set_option maxRecDepth 8192 in
set_option maxHeartbeats 1000000 in
theorem out_eq (V : Valuation τ sig (Elt Ideal)) :
    after (ops (F := Ideal)) V (main_v38 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

/-! ## The run -/

/-- On every device, over the extended reals, from any memory with zero counters: every weakly fair
    execution of the reference's main function terminates with the result buffer at the reference's
    term of the arguments' launch contents and the ten arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v38)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v38).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefValue

end
-- ==== Proof.RefFrame.lean ====
/- The reference's frame claim: its run terminates and leaves the ten argument arrays unchanged —
   the run read back, with the result's conjunct dropped. -/
import proofs.«131238_g51342039056724_cont_sun_c4_361_21_alg».proof.Defs
import proofs.«131238_g51342039056724_cont_sun_c4_361_21_alg».proof.Proof.Gen.Pre_finite_inputs
import proofs.«131238_g51342039056724_cont_sun_c4_361_21_alg».proof.Proof.RefRun

noncomputable section

namespace Cert.ReferenceIdeal.RefValue

open Cert.ReferenceIdeal Idealize.ShloMosaic Idealize.SL.Sem

/-- Every weakly fair execution of the reference terminates with its arguments as they were (whatever
    the inputs: the precondition is not used). -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run m ρ)

end Cert.ReferenceIdeal.RefValue

end
-- ==== Proof.Spec.lean ====
/-
  The result of the two-layer graph network with a layer normalisation, as functions of the argument
  arrays, index by index, over literal shapes. No program is mentioned here: both the reference's value
  and the kernel's payloads are read at an index against these definitions.

  With h = x·W1 + b1 (10000 × 128) the row p of the concatenation cat = [h | adjs[0]·h] has 256 entries;
  mean and var are its mean and (biased) variance, ln = (cat − mean) · rsqrt (var + eps) · g + b,
  t = max ln 0 · W2 + b2 (10000 × 128), and out = max (adjs[1]·t) 0 · W3 + b3 (10000 × 64).
  The later stages take the earlier scratch array as a parameter (tOf, outOf); the closed forms
  (t, out) are their compositions.
-/
import Idealize.ShloMosaic.PureOps.Ideal
import Idealize.ShloMosaic.Lib.ValueIdx

noncomputable section

open scoped BigOperators

namespace Cert.Spec

open Idealize.ShloMosaic Idealize.ShloMosaic.ValueIdx

/-! ## Shapes (reducible: they unify with any program's own abbreviations of the same literals) -/

abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S256 : Shape := ⟨1, ![256]⟩
abbrev S256x128 : Shape := ⟨2, ![256, 128]⟩
abbrev S128x64 : Shape := ⟨2, ![128, 64]⟩
abbrev S64 : Shape := ⟨1, ![64]⟩
abbrev S10000x64 : Shape := ⟨2, ![10000, 64]⟩

/-- Row `r` of the `j`-th block of 400 rows. -/
def row (j : Fin 25) (r : Fin 400) : Fin 10000 :=
  ⟨400 * j.val + r.val, by have := j.isLt; have := r.isLt; omega⟩

theorem row_val (j : Fin 25) (r : Fin 400) : (row j r).val = 400 * j.val + r.val := rfl

/-! ## The first layer -/

/-- `(x·W1 + b1)` at row `p`, column `q`. -/
def h1At (x : Vec Ideal S10000x128 .f32) (W1 : Vec Ideal S128x128 .f32) (b1 : Vec Ideal S128 .f32)
    (p : Fin 10000) (q : Fin 128) : EReal :=
  (∑ k : Fin 128, x (ix2 p k) * W1 (ix2 k q)) + b1 (ix1 q)

/-- The first scratch array: `x·W1 + b1`. -/
def h1 (x : Vec Ideal S10000x128 .f32) (W1 : Vec Ideal S128x128 .f32) (b1 : Vec Ideal S128 .f32) :
    Vec Ideal S10000x128 .f32 :=
  fun i => h1At x W1 b1 (i 0) (i 1)

theorem h1_apply (x : Vec Ideal S10000x128 .f32) (W1 : Vec Ideal S128x128 .f32) (b1 : Vec Ideal S128 .f32)
    (p : Fin 10000) (q : Fin 128) :
    h1 x W1 b1 (ix2 p q) = (∑ k : Fin 128, x (ix2 p k) * W1 (ix2 k q)) + b1 (ix1 q) := rfl

/-! ## The second layer, over a given first scratch array `H` -/

section Second
variable (H : Vec Ideal S10000x128 .f32) (adjs : Vec Ideal S2x10000x10000 .f32)

/-- `(adjs[0]·H)` at row `p`, column `q`. -/
def agg0 (p : Fin 10000) (q : Fin 128) : EReal :=
  ∑ k : Fin 10000, adjs (ix3 (0 : Fin 2) p k) * H (ix2 k q)

/-- Row `p` of the concatenation `[H | adjs[0]·H]`: `H` below column 128, the aggregate from it on. -/
def cat (p : Fin 10000) (c : Fin 256) : EReal :=
  if h : c.val < 128 then H (ix2 p ⟨c.val, h⟩) else agg0 H adjs p ⟨c.val - 128, by have := c.isLt; omega⟩

/-- The mean of row `p` of the concatenation. -/
def mean (p : Fin 10000) : EReal :=
  Ideal.div (∑ c : Fin 256, cat H adjs p c) (Ideal.ofBits .f32 0x43800000#32)

/-- The (biased) variance of row `p` of the concatenation. -/
def var (p : Fin 10000) : EReal :=
  Ideal.div (∑ c : Fin 256, (cat H adjs p c - mean H adjs p) * (cat H adjs p c - mean H adjs p))
    (Ideal.ofBits .f32 0x43800000#32)

/-- The variance plus the stabiliser `eps` (the float nearest `1e-5`). -/
def veps (p : Fin 10000) : EReal :=
  var H adjs p + Ideal.ofBits .f32 0x3727C5AC#32

variable (g bb : Vec Ideal S256 .f32)

/-- The layer normalisation of row `p` at column `c`, written with the reciprocal square root. -/
def ln (p : Fin 10000) (c : Fin 256) : EReal :=
  (cat H adjs p c - mean H adjs p) * Ideal.rsqrt (veps H adjs p) * g (ix1 c) + bb (ix1 c)

/-- Its positive part. -/
def act (p : Fin 10000) (c : Fin 256) : EReal :=
  max (ln H adjs g bb p c) 0

variable (W2 : Vec Ideal S256x128 .f32) (b2 : Vec Ideal S128 .f32)

/-- `(act·W2 + b2)` at row `p`, column `q`. -/
def tAt (p : Fin 10000) (q : Fin 128) : EReal :=
  (∑ c : Fin 256, act H adjs g bb p c * W2 (ix2 c q)) + b2 (ix1 q)

/-- The second scratch array over a given first one. -/
def tOf : Vec Ideal S10000x128 .f32 :=
  fun i => tAt H adjs g bb W2 b2 (i 0) (i 1)

theorem tOf_apply (p : Fin 10000) (q : Fin 128) :
    tOf H adjs g bb W2 b2 (ix2 p q) = (∑ c : Fin 256, act H adjs g bb p c * W2 (ix2 c q)) + b2 (ix1 q) := rfl

end Second

/-- The second scratch array of the arguments. -/
def t (x : Vec Ideal S10000x128 .f32) (adjs : Vec Ideal S2x10000x10000 .f32) (W1 : Vec Ideal S128x128 .f32)
    (b1 : Vec Ideal S128 .f32) (g bb : Vec Ideal S256 .f32) (W2 : Vec Ideal S256x128 .f32) (b2 : Vec Ideal S128 .f32) :
    Vec Ideal S10000x128 .f32 :=
  tOf (h1 x W1 b1) adjs g bb W2 b2

/-! ## The third layer, over a given second scratch array `T` -/

section Third
variable (T : Vec Ideal S10000x128 .f32) (adjs : Vec Ideal S2x10000x10000 .f32)
  (W3 : Vec Ideal S128x64 .f32) (b3 : Vec Ideal S64 .f32)

/-- `(adjs[1]·T)` at row `p`, column `k`. -/
def agg1 (p : Fin 10000) (k : Fin 128) : EReal :=
  ∑ k' : Fin 10000, adjs (ix3 (1 : Fin 2) p k') * T (ix2 k' k)

/-- `(max (adjs[1]·T) 0 · W3 + b3)` at row `p`, column `q`. -/
def outAt (p : Fin 10000) (q : Fin 64) : EReal :=
  (∑ k : Fin 128, max (agg1 T adjs p k) 0 * W3 (ix2 k q)) + b3 (ix1 q)

/-- The result over a given second scratch array. -/
def outOf : Vec Ideal S10000x64 .f32 :=
  fun i => outAt T adjs W3 b3 (i 0) (i 1)

theorem outOf_apply (p : Fin 10000) (q : Fin 64) :
    outOf T adjs W3 b3 (ix2 p q)
      = (∑ k : Fin 128, max (∑ k' : Fin 10000, adjs (ix3 (1 : Fin 2) p k') * T (ix2 k' k)) 0 * W3 (ix2 k q))
        + b3 (ix1 q) := rfl

end Third

/-- The result of the arguments. -/
def out (x : Vec Ideal S10000x128 .f32) (adjs : Vec Ideal S2x10000x10000 .f32) (W1 : Vec Ideal S128x128 .f32)
    (b1 : Vec Ideal S128 .f32) (g bb : Vec Ideal S256 .f32) (W2 : Vec Ideal S256x128 .f32) (b2 : Vec Ideal S128 .f32)
    (W3 : Vec Ideal S128x64 .f32) (b3 : Vec Ideal S64 .f32) : Vec Ideal S10000x64 .f32 :=
  outOf (t x adjs W1 b1 g bb W2 b2) adjs W3 b3

/-! ## The two literals, and the two arithmetic facts the comparison of the programs needs -/

/-- The pattern `0x43800000` is the float `256`. -/
theorem ofBits_256 : Ideal.ofBits .f32 0x43800000#32 = ((256 : ℝ) : EReal) := by
  simp [Ideal.ofBits, Ideal.ieee, -EReal.coe_mul]; try norm_num

/-- The pattern `0x3727C5AC` (the float nearest `1e-5`) is a positive real. -/
theorem ofBits_eps_pos : (0 : EReal) < Ideal.ofBits .f32 0x3727C5AC#32 := by
  simp [Ideal.ofBits, Ideal.ieee, -EReal.coe_mul]; try norm_num

/-- A square is nonnegative on the extended reals, at the infinities too. -/
theorem mul_self_nonneg' (a : EReal) : 0 ≤ a * a := by
  rcases le_total 0 a with h | h
  · exact mul_nonneg h h
  · have h' : 0 ≤ -a := EReal.neg_nonneg.mpr h
    have := mul_nonneg h' h'
    rwa [neg_mul_neg] at this

/-- Dividing a nonnegative extended real by `256` keeps it nonnegative. -/
theorem div_256_nonneg {s : EReal} (hs : 0 ≤ s) : 0 ≤ Ideal.div s (Ideal.ofBits .f32 0x43800000#32) := by
  rw [ofBits_256, Ideal.div_coe (by norm_num)]
  exact mul_nonneg hs (by exact_mod_cast (by norm_num : (0 : ℝ) ≤ 1 / 256))

/-- The variance is nonnegative whatever the entries (a sum of squares, over `256`). -/
theorem var_nonneg (H : Vec Ideal S10000x128 .f32) (adjs : Vec Ideal S2x10000x10000 .f32) (p : Fin 10000) :
    0 ≤ var H adjs p :=
  div_256_nonneg (Finset.sum_nonneg fun _ _ => mul_self_nonneg' _)

/-- So the variance plus `eps` is positive, with no finiteness assumption. -/
theorem veps_pos (H : Vec Ideal S10000x128 .f32) (adjs : Vec Ideal S2x10000x10000 .f32) (p : Fin 10000) :
    0 < veps H adjs p := by
  have h : (0 : EReal) + Ideal.ofBits .f32 0x3727C5AC#32 ≤ var H adjs p + Ideal.ofBits .f32 0x3727C5AC#32 :=
    add_le_add (var_nonneg H adjs p) le_rfl
  rw [zero_add] at h
  exact lt_of_lt_of_le ofBits_eps_pos h

/-- For a positive `v` (`⊤` included) multiplying by the reciprocal square root is dividing by the
    square root: at `⊤` both sides are `c · 0`, at a positive real both are `c · (√v)⁻¹`. -/
theorem mul_rsqrt_eq_div_sqrt (c v : EReal) (hv : 0 < v) : c * Ideal.rsqrt v = Ideal.div c (Ideal.sqrt v) := by
  induction v using EReal.rec with
  | bot => exact absurd hv (not_lt.mpr bot_le)
  | top =>
    rw [Ideal.rsqrt_top, Ideal.sqrt_top, Ideal.div, if_neg (by simp), EReal.inv_top]
  | coe r =>
    have hr : 0 < r := EReal.coe_pos.mp hv
    have hs : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hs, one_div]

end Cert.Spec

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«131238_g51342039056724_cont_sun_c4_361_21_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefSpec.lean ====
/-
  The reference's term is the specification, index by index: each stage of the term read at coordinates
  (the products as sums over the shared axis, the broadcasts at the coordinate they spread, the slab of the
  adjacency stack at its plane, the row reductions as sums over the columns), the guarded select of the
  variance decided (the count 256 − 0 is positive), and the quotient by the square root rewritten as the
  product with the reciprocal square root, the variance plus the stabiliser being positive.
-/
import proofs.«131238_g51342039056724_cont_sun_c4_361_21_alg».proof.Proof.RefTerm
import proofs.«131238_g51342039056724_cont_sun_c4_361_21_alg».proof.Proof.Spec
import proofs.«131238_g51342039056724_cont_sun_c4_361_21_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.ReferenceIdeal.RefValue

open Cert.ReferenceIdeal Idealize.ShloMosaic Idealize.ShloMosaic.ValueIdx
open scoped BigOperators

variable [Cert.ReferenceIdeal.Facts]
open Facts₀ Facts

/-! ## Broadcasts read at coordinates -/

section Bcast
variable {α : Type}

/-- A row vector spread over the rows (through a unit leading axis) reads, at (p, q), the vector at q. -/
theorem bcast_row_apply {n m : Nat} (b : (⟨1, ![m]⟩ : Shape).Idx → α)
    (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2)) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

/-- A column spread over the columns reads, at (p, c), the column at (p, 0). -/
theorem bcast_col_apply {n m : Nat} (v : (⟨2, ![n, 1]⟩ : Shape).Idx → α)
    (h : (⟨2, ![n, 1]⟩ : Shape).BroadcastsInDim ⟨2, ![n, m]⟩ (![0, 1] : Fin 2 → Fin 2)) (p : Fin n) (c : Fin m) :
    broadcastInDim ⟨2, ![n, m]⟩ ![0, 1] h v (ix2 p c) = v (ix2 p (0 : Fin 1)) := by
  refine broadcastInDim_apply _ h v (ix2 p c) (ix2 p (0 : Fin 1)) fun a => ?_
  match a with
  | ⟨0, _⟩ =>
    show p.val = if n = 1 then 0 else p.val
    split
    · have := p.isLt; omega
    · rfl
  | ⟨1, _⟩ => rfl

/-- A vector stood up as a column reads, at (p, z), the vector at p. -/
theorem bcast_vec_col_apply {n : Nat} (v : (⟨1, ![n]⟩ : Shape).Idx → α)
    (h : (⟨1, ![n]⟩ : Shape).BroadcastsInDim ⟨2, ![n, 1]⟩ (![0] : Fin 1 → Fin 2)) (p : Fin n) (z : Fin 1) :
    broadcastInDim ⟨2, ![n, 1]⟩ ![0] h v (ix2 p z) = v (ix1 p) := by
  refine broadcastInDim_apply _ h v (ix2 p z) (ix1 p) fun a => ?_
  match a with
  | ⟨0, _⟩ =>
    show p.val = if n = 1 then 0 else p.val
    split
    · have := p.isLt; omega
    · rfl

/-- A scalar spread over any shape reads the scalar everywhere. -/
theorem bcast_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun a => a.elim0

end Bcast

/-! ## The first layer -/

theorem hRef_eq (x : FVec Ideal S10000x128 .f32) (W1 : FVec Ideal S128x128 .f32) (b1 : FVec Ideal S128 .f32) :
    hRef x W1 b1 = Spec.h1 x W1 b1 := by
  funext i
  obtain ⟨p, q, rfl⟩ : ∃ p q, i = ix2 p q := ⟨i 0, i 1, eq_ix2 i⟩
  rw [Spec.h1_apply]
  unfold hRef
  rw [addf_apply, bcast_row_apply]
  exact congrArg (· + b1 (ix1 q))
    (Cert.LibHostDot.dotGeneral_plain dot_S10000x128_S128x128_S10000x128_1_0_0_1_n_n_wf .single x W1 p q)

/-! ## The adjacency matrices -/

theorem adjRef0_apply (adjs : FVec Ideal S2x10000x10000 .f32) (p k : Fin 10000) :
    adjRef0 adjs (ix2 p k) = adjs (ix3 (0 : Fin 2) p k) := by
  unfold adjRef0
  refine (shapeCast_1ab_ab_apply _ _ p k).trans ?_
  refine extractStridedSlice_apply _ adjs _ _ _ fun a => ?_
  match a with
  | ⟨0, _⟩ => rfl
  | ⟨1, _⟩ => show p.val = 0 + p.val; omega
  | ⟨2, _⟩ => show k.val = 0 + k.val; omega

theorem adjRef1_apply (adjs : FVec Ideal S2x10000x10000 .f32) (p k : Fin 10000) :
    adjRef1 adjs (ix2 p k) = adjs (ix3 (1 : Fin 2) p k) := by
  unfold adjRef1
  refine (shapeCast_1ab_ab_apply _ _ p k).trans ?_
  refine extractStridedSlice_apply _ adjs _ _ _ fun a => ?_
  match a with
  | ⟨0, _⟩ => rfl
  | ⟨1, _⟩ => show p.val = 0 + p.val; omega
  | ⟨2, _⟩ => show k.val = 0 + k.val; omega

/-! ## The concatenation -/

theorem catRef_apply (H : FVec Ideal S10000x128 .f32) (adjs : FVec Ideal S2x10000x10000 .f32) (p : Fin 10000) (c : Fin 256) :
    catRef H adjs (ix2 p c) = Spec.cat H adjs p c := by
  unfold catRef Spec.cat
  by_cases hc : c.val < 128
  · rw [dif_pos hc]
    refine concatenate_pair_apply_left (t := S10000x256) (s₁ := S10000x128) (s₂ := S10000x128) 1 _ _ _ (ix2 p c) rfl
      (ix2 p (⟨c.val, hc⟩ : Fin 128)) fun b => ?_
    match b with
    | ⟨0, _⟩ => rfl
    | ⟨1, _⟩ => rfl
  · rw [dif_neg hc]
    have hc' : c.val - 128 < 128 := by have := c.isLt; omega
    refine (concatenate_pair_apply_right (t := S10000x256) (s₁ := S10000x128) (s₂ := S10000x128) 1 _ _ _ (ix2 p c) rfl rfl
      (ix2 p (⟨c.val - 128, hc'⟩ : Fin 128)) (fun b hb => ?_) ?_).trans ?_
    · match b with
      | ⟨0, _⟩ => rfl
      | ⟨1, _⟩ => exact absurd rfl hb
    · show c.val - 128 + 128 = c.val
      omega
    · unfold Spec.agg0
      refine (Cert.LibHostDot.dotGeneral_plain dot_S10000x10000_S10000x128_S10000x128_1_0_0_1_n_n_wf .single
        (adjRef0 adjs) H p ⟨c.val - 128, hc'⟩).trans ?_
      exact Finset.sum_congr rfl fun k _ => by rw [adjRef0_apply]

/-! ## The row statistics -/

/-- A row sum at `p` is the sum of the row's entries. -/
theorem sumRef_apply (c : FVec Ideal S10000x256 .f32) (p : Fin 10000) :
    sumRef c (ix1 p) = ∑ k : Fin 256, c (ix2 p k) := by
  have hR : S10000x256.Reduces [1] S10000 := by decide
  unfold sumRef Host.reduceAdd
  refine (Ideal.hostReduceAdd_single reducesTo_S10000x256_S10000_d1 hR c _ (ix1 p)).trans ?_
  rw [constant_apply, Ideal.ofBits_zero_f32, zero_add]
  refine Finset.sum_congr rfl fun k _ => congrArg c (funext fun a => Fin.ext ?_)
  match a with
  | ⟨0, _⟩ => rfl
  | ⟨1, _⟩ => rfl

/-- The row mean, read at `(p, z)`. -/
theorem meanRef_apply (c : FVec Ideal S10000x256 .f32) (p : Fin 10000) (z : Fin 1) :
    meanRef c (ix2 p z) = Ideal.div (∑ k : Fin 256, c (ix2 p k)) (Ideal.ofBits .f32 0x43800000#32) := by
  unfold meanRef
  show Ideal.div _ _ = _
  rw [bcast_vec_col_apply, bcast_scalar_apply, sumRef_apply, constant_apply]

/-- A deviation from the row mean, read at `(p, k)`. -/
theorem devRef_apply (c : FVec Ideal S10000x256 .f32) (p : Fin 10000) (k : Fin 256) :
    devRef c (ix2 p k) = c (ix2 p k) - meanRef c (ix2 p (0 : Fin 1)) := by
  unfold devRef
  rw [subf_apply, bcast_col_apply]

/-- The count `256 − 0` is `256`. -/
theorem cntRef_apply (j : S_.Idx) : cntRef j = Ideal.ofBits .f32 0x43800000#32 := by
  unfold cntRef
  rw [subf_apply, constant_apply, sitofp_apply, constantI_apply]
  show Ideal.ofBits .f32 0x43800000#32 - (((0#32 : BitVec 32).toInt : ℝ) : EReal) = _
  simp

/-- The count is positive, so the guard of the variance's select is the set bit. -/
theorem cnt_guard (j : S_.Idx) :
    cmpf .ogt cntRef (constant (F := Ideal) S_ .f32 0x00000000#32) j = 1#1 := by
  rw [cmpf_apply, cntRef_apply, constant_apply, Ideal.ofBits_zero_f32, Spec.ofBits_256]
  show Ideal.cmp .ogt ((256 : ℝ) : EReal) 0 = 1#1
  have h : (0 : EReal) < ((256 : ℝ) : EReal) := by exact_mod_cast (by norm_num : (0 : ℝ) < 256)
  simp [Ideal.cmp, h]

/-- The variance, read at `(p, z)`: the select keeps the quotient. -/
theorem varRef_apply (c : FVec Ideal S10000x256 .f32) (p : Fin 10000) (z : Fin 1) :
    varRef c (ix2 p z)
      = Ideal.div (∑ k : Fin 256, devRef c (ix2 p k) * devRef c (ix2 p k)) (Ideal.ofBits .f32 0x43800000#32) := by
  unfold varRef
  rw [select_apply, bcast_scalar_apply, cnt_guard, select_one]
  show Ideal.div _ _ = _
  rw [bcast_vec_col_apply, bcast_scalar_apply, sumRef_apply, cntRef_apply]
  rfl

/-- The layer normalisation, read at `(p, k)`. -/
theorem lnRef_apply (c : FVec Ideal S10000x256 .f32) (g bb : FVec Ideal S256 .f32) (p : Fin 10000) (k : Fin 256) :
    lnRef c g bb (ix2 p k)
      = Ideal.div (devRef c (ix2 p k))
          (Ideal.sqrt (varRef c (ix2 p (0 : Fin 1)) + Ideal.ofBits .f32 0x3727C5AC#32)) * g (ix1 k) + bb (ix1 k) := by
  unfold lnRef
  rw [addf_apply, mulf_apply, bcast_row_apply, bcast_row_apply]
  show Ideal.div _ _ * _ + _ = _
  rw [bcast_col_apply]
  show Ideal.div _ (Ideal.sqrt _) * _ + _ = _
  rw [addf_apply, bcast_scalar_apply, constant_apply]

/-! ## The second scratch array over a given first one -/

section Second
variable (H : FVec Ideal S10000x128 .f32) (adjs : FVec Ideal S2x10000x10000 .f32)

theorem mean_cat (p : Fin 10000) : meanRef (catRef H adjs) (ix2 p (0 : Fin 1)) = Spec.mean H adjs p := by
  rw [meanRef_apply]
  unfold Spec.mean
  simp only [catRef_apply]

theorem dev_cat (p : Fin 10000) (k : Fin 256) :
    devRef (catRef H adjs) (ix2 p k) = Spec.cat H adjs p k - Spec.mean H adjs p := by
  rw [devRef_apply, catRef_apply, mean_cat]

theorem var_cat (p : Fin 10000) : varRef (catRef H adjs) (ix2 p (0 : Fin 1)) = Spec.var H adjs p := by
  rw [varRef_apply]
  unfold Spec.var
  simp only [dev_cat]

/-- The reference divides by the square root where the specification multiplies by the reciprocal square
    root: the same extended real, the variance plus the stabiliser being positive. -/
theorem ln_cat (g bb : FVec Ideal S256 .f32) (p : Fin 10000) (k : Fin 256) :
    lnRef (catRef H adjs) g bb (ix2 p k) = Spec.ln H adjs g bb p k := by
  rw [lnRef_apply, dev_cat, var_cat]
  unfold Spec.ln
  rw [Spec.mul_rsqrt_eq_div_sqrt _ _ (Spec.veps_pos H adjs p)]
  rfl

theorem relu256_apply (v : FVec Ideal S10000x256 .f32) (i : S10000x256.Idx) : relu256 v i = max (v i) 0 := by
  unfold relu256
  rw [maximumf_apply, bcast_scalar_apply, constant_apply, Ideal.ofBits_zero_f32]

theorem tRef_eq (g bb : FVec Ideal S256 .f32) (W2 : FVec Ideal S256x128 .f32) (b2 : FVec Ideal S128 .f32) :
    tRef (relu256 (lnRef (catRef H adjs) g bb)) W2 b2 = Spec.tOf H adjs g bb W2 b2 := by
  funext i
  obtain ⟨p, q, rfl⟩ : ∃ p q, i = ix2 p q := ⟨i 0, i 1, eq_ix2 i⟩
  rw [Spec.tOf_apply]
  unfold tRef
  rw [addf_apply, bcast_row_apply]
  refine congrArg (· + b2 (ix1 q)) ?_
  refine (Cert.LibHostDot.dotGeneral_plain dot_S10000x256_S256x128_S10000x128_1_0_0_1_n_n_wf .single _ W2 p q).trans ?_
  refine Finset.sum_congr rfl fun c _ => ?_
  rw [relu256_apply, ln_cat]
  rfl

end Second

/-! ## The result over a given second scratch array -/

theorem aggRef_apply (adjs : FVec Ideal S2x10000x10000 .f32) (T : FVec Ideal S10000x128 .f32) (p : Fin 10000) (k : Fin 128) :
    aggRef adjs T (ix2 p k) = ∑ k' : Fin 10000, adjs (ix3 (1 : Fin 2) p k') * T (ix2 k' k) := by
  unfold aggRef
  refine (Cert.LibHostDot.dotGeneral_plain dot_S10000x10000_S10000x128_S10000x128_1_0_0_1_n_n_wf .single
    (adjRef1 adjs) T p k).trans ?_
  exact Finset.sum_congr rfl fun k' _ => by rw [adjRef1_apply]

theorem relu128_apply (v : FVec Ideal S10000x128 .f32) (i : S10000x128.Idx) : relu128 v i = max (v i) 0 := by
  unfold relu128
  rw [maximumf_apply, bcast_scalar_apply, constant_apply, Ideal.ofBits_zero_f32]

theorem outRef_eq (T : FVec Ideal S10000x128 .f32) (adjs : FVec Ideal S2x10000x10000 .f32)
    (W3 : FVec Ideal S128x64 .f32) (b3 : FVec Ideal S64 .f32) :
    outRef (relu128 (aggRef adjs T)) W3 b3 = Spec.outOf T adjs W3 b3 := by
  funext i
  obtain ⟨p, q, rfl⟩ : ∃ p q, i = ix2 p q := ⟨i 0, i 1, eq_ix2 i⟩
  rw [Spec.outOf_apply]
  unfold outRef
  rw [addf_apply, bcast_row_apply]
  refine congrArg (· + b3 (ix1 q)) ?_
  refine (Cert.LibHostDot.dotGeneral_plain dot_S10000x128_S128x64_S10000x64_1_0_0_1_n_n_wf .single _ W3 p q).trans ?_
  refine Finset.sum_congr rfl fun k _ => ?_
  rw [relu128_apply, aggRef_apply]

/-! ## The whole -/

/-- The reference's term is the specification's result, at every argument. -/
theorem refTerm_eq_spec (x : FVec Ideal S10000x128 .f32) (adjs : FVec Ideal S2x10000x10000 .f32)
    (W1 : FVec Ideal S128x128 .f32) (b1 : FVec Ideal S128 .f32) (g bb : FVec Ideal S256 .f32)
    (W2 : FVec Ideal S256x128 .f32) (b2 : FVec Ideal S128 .f32) (W3 : FVec Ideal S128x64 .f32) (b3 : FVec Ideal S64 .f32) :
    refTerm x adjs W1 b1 g bb W2 b2 W3 b3 = Spec.out x adjs W1 b1 g bb W2 b2 W3 b3 := by
  unfold refTerm tTerm Spec.out Spec.t
  rw [hRef_eq, tRef_eq, outRef_eq]

end Cert.ReferenceIdeal.RefValue

end
-- ==== Proof.KBase.lean ====
/-
  The grid of the one pipelined region has fifty points. Point 0 fills the first scratch (all 10000 rows of
  x·W1 + b1); points 0–24 each fill one block of 400 rows of the second scratch; points 25–49 each produce one
  block of 400 rows of the result. This module decides the three branch conditions over the grid, says where
  each window is idle or written back, and names the staging and scratch memrefs the body is called with.
-/
import proofs.«131238_g51342039056724_cont_sun_c4_361_21_alg».proof.Proof.Gen.KernelIdeal.Frame
import proofs.«131238_g51342039056724_cont_sun_c4_361_21_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The first branch's condition (the grid coordinate is zero), as the body computes it. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The second branch's condition: the point is one of the first twenty-five. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The third branch's condition: the point is one of the last twenty-five. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

/-- The row offset of the block a filling point works on is 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The result's window is idle exactly at the filling points, -/
theorem idle10_fill : ∀ t : Fin cfg0.N, t.val < 25 → cfg0.idle 10 (grid0.coords t) = true :=
  (by decide +kernel : ∀ t : Fin grid0.N, t.val < 25 → cfg0.idle 10 (grid0.coords t) = true)
theorem live10_emit : ∀ t : Fin cfg0.N, 25 ≤ t.val → cfg0.idle 10 (grid0.coords t) = false :=
  (by decide +kernel : ∀ t : Fin grid0.N, 25 ≤ t.val → cfg0.idle 10 (grid0.coords t) = false)
/-- and written back exactly at the emitting points. -/
theorem noflush10_fill : ∀ t : Fin cfg0.N, t.val < 25 → (cfg0.win 10).flush t = false :=
  (by decide +kernel : ∀ t : Fin grid0.N, t.val < 25 → win0_10.flush t = false)
theorem flush10_emit : ∀ t : Fin cfg0.N, 25 ≤ t.val → (cfg0.win 10).flush t = true :=
  (by decide +kernel : ∀ t : Fin grid0.N, 25 ≤ t.val → win0_10.flush t = true)

/-! ## The memrefs the body is called with -/

abbrev mr0 (t : Fin cfg0.N) : Memref sig .tc .vmem S10000x128 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S1x400x10000 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S128x128 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x128 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S1x256 .f32 := win0_4.stage (cfg0.slots t 4)
abbrev wh4 (t : Fin cfg0.N) : (mr4 t).IsWhole := hstage0_4 ((cfg0.slots t 4).cast nbuf0_4)
abbrev mr5 (t : Fin cfg0.N) : Memref sig .tc .vmem S1x256 .f32 := win0_5.stage (cfg0.slots t 5)
abbrev wh5 (t : Fin cfg0.N) : (mr5 t).IsWhole := hstage0_5 ((cfg0.slots t 5).cast nbuf0_5)
abbrev mr6 (t : Fin cfg0.N) : Memref sig .tc .vmem S256x128 .f32 := win0_6.stage (cfg0.slots t 6)
abbrev wh6 (t : Fin cfg0.N) : (mr6 t).IsWhole := hstage0_6 ((cfg0.slots t 6).cast nbuf0_6)
abbrev mr7 (t : Fin cfg0.N) : Memref sig .tc .vmem S1x128 .f32 := win0_7.stage (cfg0.slots t 7)
abbrev wh7 (t : Fin cfg0.N) : (mr7 t).IsWhole := hstage0_7 ((cfg0.slots t 7).cast nbuf0_7)
abbrev mr8 (t : Fin cfg0.N) : Memref sig .tc .vmem S128x64 .f32 := win0_8.stage (cfg0.slots t 8)
abbrev wh8 (t : Fin cfg0.N) : (mr8 t).IsWhole := hstage0_8 ((cfg0.slots t 8).cast nbuf0_8)
abbrev mr9 (t : Fin cfg0.N) : Memref sig .tc .vmem S1x64 .f32 := win0_9.stage (cfg0.slots t 9)
abbrev wh9 (t : Fin cfg0.N) : (mr9 t).IsWhole := hstage0_9 ((cfg0.slots t 9).cast nbuf0_9)
abbrev mr10 (t : Fin cfg0.N) : Memref sig .tc .vmem S400x64 .f32 := win0_10.stage (cfg0.slots t 10)
abbrev wh10 (t : Fin cfg0.N) : (mr10 t).IsWhole := hstage0_10 ((cfg0.slots t 10).cast nbuf0_10)
/-- The two scratch buffers, whole. -/
abbrev scrH : Memref sig .tc .vmem S10000x128 .f32 := Memref.whole cc0_scratch0
abbrev scrT : Memref sig .tc .vmem S10000x128 .f32 := Memref.whole cc0_scratch1

/-- What the launch hands the region besides the windows: both scratch buffers at some contents and the
    generator register at some state. -/
theorem PhiA_eq (c : Dev nD) :
    (Pipeline.ΦA spec0 c : sProp 𝕄)
      = iprop(iprop((∃ d, owns (c : Thread nD τ) scrH fullShare d) ∗ (∃ d, owns (c : Thread nD τ) scrT fullShare d)) ∗ (∃ r, prngReg c r)) := by
  unfold Pipeline.ΦA; rw [scopedRest0_eq]; simp only [scrH, scrT, owns_whole]; try rfl

end Cert.KernelIdeal.Hand

end
-- ==== Proof.KRunA.lean ====
/-
  The body at the grid's first point: it stores x·W1 + b1 into the whole first scratch, then (the point being a
  filling point) reads that scratch back, forms the first block of 400 rows of the second scratch and stores it
  over rows 0–399 of what the second scratch held; the third branch is not taken. The stores are found as pieces.
-/
import proofs.«131238_g51342039056724_cont_sun_c4_361_21_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point. The first scratch is handed over at any contents and comes back with its one piece written;
    the second comes at contents `xs1` and comes back with its one piece written over those; the result's buffer,
    at contents `xo`, is untouched. -/
noncomputable def runFirst (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    Σ' (LH : List (View.Piece (Elt F) S10000x128 .f32)) (LT : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (∃ f, arg12.view.loc (c : Thread nD τ) ↦[arg12.view.set]{fullShare} arg12.view.writes (Elt F) f LH) ∗ (arg13.view.loc (c : Thread nD τ) ↦[arg13.view.set]{fullShare} arg13.view.writes (Elt F) (harg13.unread xs1) LT)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg13.eq_unread hfs1
    obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexact HS1

end Cert.KernelIdeal.Hand

end
-- ==== Proof.KRunB.lean ====
/-
  The body at a filling point after the first (points 1–24): the first scratch, at contents `xs0`, is only read;
  one block of 400 rows of the second scratch is formed from it and stored over what the second scratch held; the
  first and third branches are not taken.
-/
import proofs.«131238_g51342039056724_cont_sun_c4_361_21_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFill (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs0 : Vec F S10000x128 .f32) (xs1 : Vec F S10000x128 .f32) :
    Σ' (LT : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ (arg13.view.loc (c : Thread nD τ) ↦[arg13.view.set]{fullShare} arg13.view.writes (Elt F) (harg13.unread xs1) LT)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0
    obtain rfl := harg13.eq_unread hfs1
    obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    iexact HS1

end Cert.KernelIdeal.Hand

end
-- ==== Proof.KRunC.lean ====
/-
  The body at an emitting point (points 25–49): both scratch buffers are only read (the first not even that); the
  block of 400 rows of the result is formed from the adjacency block and the whole second scratch and stored into
  the result's staging buffer, covering it; the first two branches are not taken.
-/
import proofs.«131238_g51342039056724_cont_sun_c4_361_21_alg».proof.Proof.KBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runEmit (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : ¬inFill i) (hc2 : inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xs0 : Vec F S10000x128 .f32) (xs1 : Vec F S10000x128 .f32) :
    Σ' (LO : List (View.Piece (Elt F) S400x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LO) ∗ owns (c : Thread nD τ) arg12 fullShare xs0 ∗ owns (c : Thread nD τ) arg13 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0
    obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _; isplitr; · ipureintro; exact harg12.read_unread _
      iexact HS0
    iexists _; isplitr; · ipureintro; exact harg13.read_unread _
    iexact HS1

end Cert.KernelIdeal.Hand

end
-- ==== Proof.KPieces.lean ====
/-
  What the three runs found, stated in closed form. Each store's payload is one of the body's four pure terms
  applied to what the loads read: a load of a whole buffer reads its contents, a load of a block of rows reads
  those rows, and a load that follows a store covering the buffer reads what was stored.
-/
import proofs.«131238_g51342039056724_cont_sun_c4_361_21_alg».proof.Proof.KRunA
import proofs.«131238_g51342039056724_cont_sun_c4_361_21_alg».proof.Proof.KRunB
import proofs.«131238_g51342039056724_cont_sun_c4_361_21_alg».proof.Proof.KRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load of a whole buffer reads its contents. -/
theorem readAt_unread_whole {S : Shape} {e : EltTy} (M : Memref sig .tc .vmem S e) (h : M.IsWhole) (X : S.Idx → Elt F e)
    {off : Fin S.rank → ℕ} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

/-- A load of a rectangle reads the contents through the rectangle. -/
theorem readAt_unread_rect {S : Shape} {e : EltTy} (M : Memref sig .tc .vmem S e) (h : M.IsWhole) (X : S.Idx → Elt F e)
    (r : Rect S) : View.readAt (Elt F) M.view r.toLoadRect (h.unread X) = View.ld X r := by
  rw [View.readAt_eq_ld, h.read_unread]

/-- One store covering a whole buffer reads back as its payload, whatever the buffer held. -/
theorem read_writes_whole_unit {S : Shape} {e : EltTy} (v : View sig .tc .vmem S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz
  exact View.read_writes_whole v f w

/-- The block of 400 rows of a 10000-row array that a filling point works on. -/
def rowsOf (X : Vec F S10000x128 .f32) (i : grid0.Coords) (h : inFill i) : Vec F S400x128 .f32 :=
  View.ld X (Rect.unit (k0_off1 i) S400x128.size (k0_off1_inb i h))

/-- The block of the second scratch a filling point stores, from the point's input blocks and the first scratch. -/
def fillPay (i : grid0.Coords) (h : inFill i) (x1 : Vec F S1x400x10000 .f32) (x4 x5 : Vec F S1x256 .f32) (x6 : Vec F S256x128 .f32)
    (x7 : Vec F S1x128 .f32) (H : Vec F S10000x128 .f32) : Vec F S400x128 .f32 :=
  k0_pay2 (k0_pay4 x1 H (rowsOf H i h) x4 x5 x6) x7

theorem runEmit_O (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : ¬inFill i) (hc2 : inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xs0 xs1 : Vec F S10000x128 .f32) :
    (runEmit c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs0 xs1).1
      = [⟨Rect.unit ![0, 0] ![400, 64] inb_S400x64_S400x64_0_0, k0_pay3 x1 xs1 x8 x9⟩] := by
  unfold runEmit
  dsimp only
  sl_unfold_run_names
  rw [readAt_unread_whole arg2 harg2 x1 hz3, readAt_unread_whole arg13 harg13 xs1 hz2, readAt_unread_whole arg9 harg9 x8 hz2,
    readAt_unread_whole arg10 harg10 x9 hz2]

theorem runFill_T (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs0 xs1 : Vec F S10000x128 .f32) :
    (runFill c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs0 xs1).1
      = [⟨Rect.unit (k0_off1 i) ![400, 128] (k0_off1_inb i hc1), fillPay i hc1 x1 x4 x5 x6 x7 xs0⟩] := by
  unfold runFill
  dsimp only
  sl_unfold_run_names
  unfold fillPay rowsOf
  rw [readAt_unread_whole arg2 harg2 x1 hz3, readAt_unread_whole arg12 harg12 xs0 hz2, readAt_unread_rect arg12 harg12 xs0,
    readAt_unread_whole arg5 harg5 x4 hz2, readAt_unread_whole arg6 harg6 x5 hz2, readAt_unread_whole arg7 harg7 x6 hz2,
    readAt_unread_whole arg8 harg8 x7 hz2]

theorem runFirst_H (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs1).1
      = [⟨Rect.unit ![0, 0] ![10000, 128] inb_S10000x128_S10000x128_0_0, k0_pay1 x0 x2 x3⟩] := by
  unfold runFirst
  dsimp only
  sl_unfold_run_names
  rw [readAt_unread_whole arg1 harg1 x0 hz2, readAt_unread_whole arg3 harg3 x2 hz2, readAt_unread_whole arg4 harg4 x3 hz2]

theorem runFirst_T (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs1).2.1
      = [⟨Rect.unit (k0_off1 i) ![400, 128] (k0_off1_inb i hc1), fillPay i hc1 x1 x4 x5 x6 x7 (k0_pay1 x0 x2 x3)⟩] := by
  unfold runFirst
  dsimp only
  sl_unfold_run_names
  unfold fillPay rowsOf
  rw [readAt_unread_whole arg1 harg1 x0 hz2, readAt_unread_whole arg3 harg3 x2 hz2, readAt_unread_whole arg4 harg4 x3 hz2,
    readAt_unread_whole arg2 harg2 x1 hz3,
    readAt_unread_whole arg5 harg5 x4 hz2, readAt_unread_whole arg6 harg6 x5 hz2, readAt_unread_whole arg7 harg7 x6 hz2,
    readAt_unread_whole arg8 harg8 x7 hz2,
    View.readCov_unit_zero arg12.view hz2, View.readAt_eq_ld, View.read_writes_junk_eq_canon, View.canon_unit_zero hz2]

end Cert.KernelIdeal.Hand

end
-- ==== Proof.KData.lean ====
/-
  What the two scratch buffers and the result's staging buffer hold from point to point, and the pipeline's
  proof data built from it. After point 0 the first scratch holds x·W1 + b1 (all rows) for the rest of the run.
  After filling point n, rows 400·j … 400·j+399 of the second scratch hold block j for every j ≤ n (the other rows
  hold whatever they held: nothing is said of them). From point 25 on the second scratch is the array whose block
  j is that block, and emitting point t stores one block of the result computed from it.
-/
import proofs.«131238_g51342039056724_cont_sun_c4_361_21_alg».proof.Proof.KPieces
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
def pt0 : Fin cfg0.N := ⟨0, by rw [N50]; omega⟩
/-- The grid point of filling step `j`. -/
def fillPt (j : Fin 25) : Fin cfg0.N := ⟨j.val, by rw [N50]; omega⟩
theorem fillPt_inFill (j : Fin 25) : inFill (grid0.coords (fillPt j)) := (inFill_iff (fillPt j)).mpr j.isLt

/-- The first scratch after the first point: the body's first payload of the (constant) blocks of x, W1, b1. -/
def Hval (c : Dev nD) : Vec F S10000x128 .f32 := k0_pay1 (iblk m c 0 pt0) (iblk m c 2 pt0) (iblk m c 3 pt0)

/-- Block `j` of the second scratch: what filling point `j` stores. -/
def Tblk (c : Dev nD) (j : Fin 25) : Vec F S400x128 .f32 :=
  fillPay (grid0.coords (fillPt j)) (fillPt_inFill j) (iblk m c 1 (fillPt j)) (iblk m c 4 (fillPt j)) (iblk m c 5 (fillPt j))
    (iblk m c 6 (fillPt j)) (iblk m c 7 (fillPt j)) (Hval m c)

/-- The second scratch once every block is stored: row 400·j + r is row r of block j. -/
def Tfull (c : Dev nD) : Vec F S10000x128 .f32 := fun y =>
  Tblk m c ⟨(y 0).val / 400, Nat.div_lt_of_lt_mul (y 0).isLt⟩ (ix2 ⟨(y 0).val % 400, Nat.mod_lt _ (by omega)⟩ (y 1))

/-- The second scratch holds blocks 0 … n in place (rows by rows, columns by columns). -/
def TOk (c : Dev nD) (n : ℕ) (X : Vec F S10000x128 .f32) : Prop :=
  ∀ (j : Fin 25), j.val ≤ n → ∀ (y : S10000x128.Idx) (x : S400x128.Idx),
    (y 0).val = 400 * j.val + (x 0).val → (y 1).val = (x 1).val → X y = Tblk m c j x

theorem TOk_Tfull (c : Dev nD) (n : ℕ) : TOk m c n (Tfull m c) := by
  intro j _ y x h0 h1
  have hx0 : (x 0).val < 400 := (x 0).isLt
  unfold Tfull
  have e1 : (⟨(y 0).val / 400, Nat.div_lt_of_lt_mul (y 0).isLt⟩ : Fin 25) = j := Fin.ext (by
    show (y 0).val / 400 = j.val
    omega)
  have e2 : (ix2 ⟨(y 0).val % 400, Nat.mod_lt _ (by omega)⟩ (y 1) : S400x128.Idx) = x := by
    rw [eq_ix2 x]
    congr 1
    · exact Fin.ext (by show (y 0).val % 400 = (x 0).val; omega)
    · exact Fin.ext h1
  rw [e1, e2]

/-- Once all twenty-five blocks are in place the second scratch is `Tfull`. -/
theorem eq_Tfull_of_TOk (c : Dev nD) (n : ℕ) (hn : 24 ≤ n) (X : Vec F S10000x128 .f32) (h : TOk m c n X) : X = Tfull m c := by
  funext y
  have hy : (y 0).val < 10000 := (y 0).isLt
  exact h ⟨(y 0).val / 400, Nat.div_lt_of_lt_mul (y 0).isLt⟩ (by show (y 0).val / 400 ≤ n; omega) y
    (ix2 ⟨(y 0).val % 400, Nat.mod_lt _ (by omega)⟩ (y 1))
    (by show (y 0).val = 400 * ((y 0).val / 400) + (y 0).val % 400; omega) rfl

/-- The block of the result emitting point `t` stores. -/
def Oblk (c : Dev nD) (t : Fin cfg0.N) : Vec F S400x64 .f32 :=
  k0_pay3 (iblk m c 1 t) (Tfull m c) (iblk m c 8 t) (iblk m c 9 t)

/-- Storing block `n` over rows 400·n … of contents that hold blocks below `n` gives contents that hold blocks up to `n`. -/
theorem TOk_step (c : Dev nD) (n : ℕ) (hn : n < 25) (X : Vec F S10000x128 .f32) (hX : ∀ k, n = k + 1 → TOk m c k X)
    (M : Memref sig .tc .vmem S10000x128 .f32) (hM : M.IsWhole) (off : Fin 2 → ℕ) (hoff : off = ![400 * n, 0])
    (inb : ∀ a, off a + S400x128.size a ≤ S10000x128.size a) :
    TOk m c n (M.view.read (Elt F) (M.view.writes (Elt F) (hM.unread X) [⟨Rect.unit off S400x128.size inb, Tblk m c ⟨n, hn⟩⟩])) := by
  intro j hj y x h0 h1
  have hx0 : (x 0).val < 400 := (x 0).isLt
  by_cases hjn : j.val = n
  · have ej : j = ⟨n, hn⟩ := Fin.ext hjn
    subst ej
    exact View.read_writes_cons_rows_of_mem M.view (hM.unread X) inb (Tblk m c ⟨n, hn⟩) [] y x hoff h0 h1
  · have hlt : j.val < n := by omega
    obtain ⟨k, rfl⟩ : ∃ k, n = k + 1 := ⟨n - 1, by omega⟩
    rw [View.read_writes_cons_rows_of_not_mem M.view (hM.unread X) inb (Tblk m c ⟨k + 1, hn⟩) [] y hoff (W := 400) rfl (by omega)]
    rw [View.writes_nil, hM.read_unread]
    exact hX k rfl j (by omega) y x h0 h1

/-! ## The invariant between points -/

/-- Before the first point both scratch buffers hold anything; afterwards the first holds `Hval` and the second
    holds the blocks stored so far. -/
def Phi (c : Dev nD) : (n : ℕ) → n ≤ cfg0.N → sProp 𝕄
  | 0, _ => Pipeline.ΦA spec0 c
  | n + 1, _ => iprop(iprop(owns (c : Thread nD τ) scrH fullShare (Hval m c) ∗ (∃ X, ⌜TOk m c n X⌝ ∗ owns (c : Thread nD τ) scrT fullShare X)) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n + 1 ≤ cfg0.N) :
    Phi m c (n + 1) hn = iprop(iprop(owns (c : Thread nD τ) scrH fullShare (Hval m c) ∗ (∃ X, ⌜TOk m c n X⌝ ∗ owns (c : Thread nD τ) scrT fullShare X)) ∗ (∃ r, prngReg c r)) := rfl
theorem Phi_pos (c : Dev nD) (n : ℕ) (h : n ≤ cfg0.N) (hz : n ≠ 0) :
    Phi m c n h = iprop(iprop(owns (c : Thread nD τ) scrH fullShare (Hval m c) ∗ (∃ X, ⌜TOk m c (n - 1) X⌝ ∗ owns (c : Thread nD τ) scrT fullShare X)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Oblk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = Oblk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

end Cert.KernelIdeal.Hand

end
-- ==== Proof.KBody.lean ====
/-
  The body obligation: at every grid point the body, run on the windows' current blocks and on the scratch
  buffers as the invariant describes them, re-establishes the invariant one point later and leaves every window's
  buffer as the proof data says. Three cases by the point: the first point, a later filling point, an emitting point.
-/
import proofs.«131238_g51342039056724_cont_sun_c4_361_21_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d))
    ∗ (∃ d, owns (c : Thread nD τ) (mr9 t) fullShare ((dats m 0 c).before 9 t d))
    ∗ (∃ d, owns (c : Thread nD τ) (mr10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt N50
  rw [show (dats m 0 c).leavesExact 0 t = owns (c : Thread nD τ) (mr0 t) fullShare ((dats m 0 c).after 0 t) from by
    unfold Dat.leavesExact; rw [live0 t], after_0]
  rw [show (dats m 0 c).leavesExact 1 t = owns (c : Thread nD τ) (mr1 t) fullShare ((dats m 0 c).after 1 t) from by
    unfold Dat.leavesExact; rw [live1 t], after_1]
  rw [show (dats m 0 c).leavesExact 2 t = owns (c : Thread nD τ) (mr2 t) fullShare ((dats m 0 c).after 2 t) from by
    unfold Dat.leavesExact; rw [live2 t], after_2]
  rw [show (dats m 0 c).leavesExact 3 t = owns (c : Thread nD τ) (mr3 t) fullShare ((dats m 0 c).after 3 t) from by
    unfold Dat.leavesExact; rw [live3 t], after_3]
  rw [show (dats m 0 c).leavesExact 4 t = owns (c : Thread nD τ) (mr4 t) fullShare ((dats m 0 c).after 4 t) from by
    unfold Dat.leavesExact; rw [live4 t], after_4]
  rw [show (dats m 0 c).leavesExact 5 t = owns (c : Thread nD τ) (mr5 t) fullShare ((dats m 0 c).after 5 t) from by
    unfold Dat.leavesExact; rw [live5 t], after_5]
  rw [show (dats m 0 c).leavesExact 6 t = owns (c : Thread nD τ) (mr6 t) fullShare ((dats m 0 c).after 6 t) from by
    unfold Dat.leavesExact; rw [live6 t], after_6]
  rw [show (dats m 0 c).leavesExact 7 t = owns (c : Thread nD τ) (mr7 t) fullShare ((dats m 0 c).after 7 t) from by
    unfold Dat.leavesExact; rw [live7 t], after_7]
  rw [show (dats m 0 c).leavesExact 8 t = owns (c : Thread nD τ) (mr8 t) fullShare ((dats m 0 c).after 8 t) from by
    unfold Dat.leavesExact; rw [live8 t], after_8]
  rw [show (dats m 0 c).leavesExact 9 t = owns (c : Thread nD τ) (mr9 t) fullShare ((dats m 0 c).after 9 t) from by
    unfold Dat.leavesExact; rw [live9 t], after_9]
  rw [Phi_castSucc m c t]
  by_cases hz : t.val = 0
  · -- the first point
    have h1 : t.val < 25 := by omega
    have e0 : t = pt0 := Fin.ext hz
    rw [(dats m 0 c).leavesExact_idle 10 t (idle10_fill t h1) (noflush10_fill t h1)]
    rw [Phi_zero m c _ _ hz, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HS1 with ⟨%X0, HS1⟩
    iapply ((runFirst c (grid0.coords t) _ _ _ _ _ _ _ _ _ _ _ _ _ _ _ _ _ _ _ _ _ _ _ _ _ _ ((atFirst_iff t).mpr hz) ((inFill_iff t).mpr h1) (fun h => absurd ((inEmit_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) X0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%fH, HS0⟩, HS1⟩
    isplitl [HS0 HS1 Hg]
    · isplitl [HS0 HS1]
      · isplitl [HS0]
        · unfold owns; iexists _; isplitr
          swap; · iexact HS0
          ipureintro
          rw [runFirst_H, read_writes_whole_unit _ _ hz2]
          subst e0; rfl
        · iexists _; isplitr
          swap
          · unfold owns; iexists _; isplitr
            swap; · iexact HS1
            ipureintro; rfl
          · ipureintro
            rw [runFirst_T]
            subst e0
            exact TOk_step m c 0 (by omega) X0 (fun k hk => absurd hk (by omega)) scrT (Memref.isWhole_whole _) _ (off1_eq pt0 (by decide)) _
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val < 25
    · -- a later filling point
      rw [(dats m 0 c).leavesExact_idle 10 t (idle10_fill t h1) (noflush10_fill t h1)]
      rw [Phi_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      icases HS1 with ⟨%X0, %hX0, HS1⟩
      iapply ((runFill c (grid0.coords t) _ _ _ _ _ _ _ _ _ _ _ _ _ _ _ _ _ _ _ _ _ _ _ _ _ _ (fun h => hz ((atFirst_iff t).mp h)) ((inFill_iff t).mpr h1) (fun h => absurd ((inEmit_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (Hval m c) X0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            · ipureintro
              rw [runFill_T]
              obtain ⟨n, hn⟩ := t
              have hn25 : n < 25 := h1
              exact TOk_step m c n hn25 X0 (fun k hk => by
                have : n - 1 = k := by omega
                exact this ▸ hX0) scrT (Memref.isWhole_whole _) _ (off1_eq ⟨n, hn⟩ h1) _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- an emitting point
      have h2 : 25 ≤ t.val := by omega
      rw [show (dats m 0 c).leavesExact 10 t = owns (c : Thread nD τ) (mr10 t) fullShare ((dats m 0 c).after 10 t) from by
        unfold Dat.leavesExact; rw [live10_emit t h2], after_10]
      rw [Phi_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      icases HS1 with ⟨%X0, %hX0, HS1⟩
      have eX : X0 = Tfull m c := eq_Tfull_of_TOk m c (t.val - 1) (by omega) X0 hX0
      subst eX
      iapply ((runEmit c (grid0.coords t) _ _ _ _ _ _ _ _ _ _ _ _ _ _ _ _ _ _ _ _ _ _ _ _ _ _ (fun h => hz ((atFirst_iff t).mp h)) (fun h => h1 ((inFill_iff t).mp h)) ((inEmit_iff t).mpr h2) (iblk m c 0 t) (iblk m c 1 t) (iblk m c 2 t) (iblk m c 3 t) (iblk m c 4 t) (iblk m c 5 t) (iblk m c 6 t) (iblk m c 7 t) (iblk m c 8 t) (iblk m c 9 t) (Hval m c) (Tfull m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%fO, H10⟩, HS0, HS1⟩
      isplitl [HS0 HS1 Hg]
      · isplitl [HS0 HS1]
        · isplitl [HS0]
          · iexact HS0
          · iexists _; isplitr
            swap; · iexact HS1
            ipureintro; exact TOk_Tfull m c _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro
      rw [runEmit_O, read_writes_whole_unit _ _ hz2]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%X, -, HS1⟩⟩, Hg⟩
  isplitl [HS0 HS1]
  · isplitl [HS0]
    · iexists _; iexact HS0
    iexists _; iexact HS1
  iexact Hg

end Cert.KernelIdeal.Hand

end
-- ==== Proof.KRun.lean ====
/-
  The frame run: every weakly fair execution of the program terminates without a fault, each windowed array ends
  at what the proof data computes (the inputs unchanged, the result written block by block), and every other
  unscoped buffer ends as the region found it. The frame claim follows.
-/
import proofs.«131238_g51342039056724_cont_sun_c4_361_21_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.KBlocks.lean ====
/-
  The pipeline's windows read at coordinates. At every grid point the whole-array windows hold their arrays; the
  five one-row windows hold the bias and scale vectors on their one row (the rows are the vectors viewed [1, n]
  before the grid starts); the adjacency window at point t holds rows 400·t … 400·t + 399 of the first adjacency
  matrix for t below 25 and rows 400·(t − 25) … of the second from 25 on; a filling point's rectangle of a whole
  10000 × 128 array holds its rows 400·t …; and the result window at point 25 + j sits on rows 400·j … of the
  result, these blocks covering the result.
-/
import proofs.«131238_g51342039056724_cont_sun_c4_361_21_alg».proof.Proof.Gen.KernelIdeal.Frame
import proofs.«131238_g51342039056724_cont_sun_c4_361_21_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.BlockValue

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The index maps over the grid -/

/-- The grid's one coordinate at the t-th point is t. -/
theorem coords0 : ∀ t : Fin cfg0.N, (grid0.coords t 0).val = t.val :=
  (by decide +kernel : ∀ t : Fin grid0.N, (grid0.coords t 0).val = t.val)

/-- The adjacency window's block index: matrix 0 and block t below point 25, matrix 1 and block t − 25 from it on. -/
theorem idx1 : ∀ t : Fin cfg0.N, win0_1.index t (0 : Fin 3) = (if 25 ≤ t.val then 1 else 0)
    ∧ win0_1.index t (1 : Fin 3) = (if 25 ≤ t.val then t.val - 25 else t.val)
    ∧ win0_1.index t (2 : Fin 3) = 0 :=
  (by decide +kernel : ∀ t : Fin grid0.N, _)

/-- The result window's block index: block 0 below point 25, block t − 25 from it on. -/
theorem idx10 : ∀ t : Fin cfg0.N, win0_10.index t (0 : Fin 2) = (if 25 ≤ t.val then t.val - 25 else 0)
    ∧ win0_10.index t (1 : Fin 2) = 0 :=
  (by decide +kernel : ∀ t : Fin grid0.N, _)

/-- The result window writes its block back exactly at the points from 25 on. -/
theorem flush10_iff : ∀ t : Fin cfg0.N, (cfg0.win 10).flush t = true ↔ 25 ≤ t.val :=
  (by decide +kernel : ∀ t : Fin grid0.N, win0_10.flush t = true ↔ 25 ≤ t.val)

/-! ## (a) The whole-array windows are the arrays -/

/-- Window 0's block at every point is the whole first argument (block index 0 on both axes, block = array). -/
theorem iblk0 (t : Fin cfg0.N) :
    (Gen.iblk m c 0 t : S10000x128.Idx → EReal) = m ((c.tc : Thread nD τ).loc main_arg0) := by
  unfold Gen.iblk
  rw [show Gen.V m c (Pipeline.arrRef spec0 0) = m ((c : Thread nD τ).loc main_arg0) from Gen.V_main_arg0 m c]
  funext i
  show m ((c : Thread nD τ).loc main_arg0) (((cfg0.win 0).blk t).view.emb i) = m ((c : Thread nD τ).loc main_arg0) i
  refine congrArg (m ((c : Thread nD τ).loc main_arg0)) (funext fun a => Fin.ext ?_)
  match a with
  | ⟨0, _⟩ => show 0 * 10000 + 1 * (i 0).val = (i 0).val; omega
  | ⟨1, _⟩ => show 0 * 128 + 1 * (i 1).val = (i 1).val; omega

/-- Window 2's block at every point is the whole first weight matrix. -/
theorem iblk2 (t : Fin cfg0.N) :
    (Gen.iblk m c 2 t : S128x128.Idx → EReal) = m ((c.tc : Thread nD τ).loc main_arg2) := by
  unfold Gen.iblk
  rw [show Gen.V m c (Pipeline.arrRef spec0 2) = m ((c : Thread nD τ).loc main_arg2) from Gen.V_main_arg2 m c]
  funext i
  show m ((c : Thread nD τ).loc main_arg2) (((cfg0.win 2).blk t).view.emb i) = m ((c : Thread nD τ).loc main_arg2) i
  refine congrArg (m ((c : Thread nD τ).loc main_arg2)) (funext fun a => Fin.ext ?_)
  match a with
  | ⟨0, _⟩ => show 0 * 128 + 1 * (i 0).val = (i 0).val; omega
  | ⟨1, _⟩ => show 0 * 128 + 1 * (i 1).val = (i 1).val; omega

/-- Window 6's block at every point is the whole second weight matrix. -/
theorem iblk6 (t : Fin cfg0.N) :
    (Gen.iblk m c 6 t : S256x128.Idx → EReal) = m ((c.tc : Thread nD τ).loc main_arg6) := by
  unfold Gen.iblk
  rw [show Gen.V m c (Pipeline.arrRef spec0 6) = m ((c : Thread nD τ).loc main_arg6) from Gen.V_main_arg6 m c]
  funext i
  show m ((c : Thread nD τ).loc main_arg6) (((cfg0.win 6).blk t).view.emb i) = m ((c : Thread nD τ).loc main_arg6) i
  refine congrArg (m ((c : Thread nD τ).loc main_arg6)) (funext fun a => Fin.ext ?_)
  match a with
  | ⟨0, _⟩ => show 0 * 256 + 1 * (i 0).val = (i 0).val; omega
  | ⟨1, _⟩ => show 0 * 128 + 1 * (i 1).val = (i 1).val; omega

/-- Window 8's block at every point is the whole third weight matrix. -/
theorem iblk8 (t : Fin cfg0.N) :
    (Gen.iblk m c 8 t : S128x64.Idx → EReal) = m ((c.tc : Thread nD τ).loc main_arg8) := by
  unfold Gen.iblk
  rw [show Gen.V m c (Pipeline.arrRef spec0 8) = m ((c : Thread nD τ).loc main_arg8) from Gen.V_main_arg8 m c]
  funext i
  show m ((c : Thread nD τ).loc main_arg8) (((cfg0.win 8).blk t).view.emb i) = m ((c : Thread nD τ).loc main_arg8) i
  refine congrArg (m ((c : Thread nD τ).loc main_arg8)) (funext fun a => Fin.ext ?_)
  match a with
  | ⟨0, _⟩ => show 0 * 128 + 1 * (i 0).val = (i 0).val; omega
  | ⟨1, _⟩ => show 0 * 64 + 1 * (i 1).val = (i 1).val; omega

/-! ## (b) The row windows carry the vectors -/

/-- When the grid starts each row array is its vector viewed as one row: the five reshapes before it. -/
theorem V_v0 : (Gen.V m c main_v0 : S1x128.Idx → EReal)
    = shapeCast S1x128 (m ((c.tc : Thread nD τ).loc main_arg3) : S128.Idx → EReal) Gen.shapeCasts_S128_S1x128 := by
  dsimp only [Gen.V, Gen.hostOps0]; after_results; rfl
theorem V_v1 : (Gen.V m c main_v1 : S1x256.Idx → EReal)
    = shapeCast S1x256 (m ((c.tc : Thread nD τ).loc main_arg4) : S256.Idx → EReal) Gen.shapeCasts_S256_S1x256 := by
  dsimp only [Gen.V, Gen.hostOps0]; after_results; rfl
theorem V_v2 : (Gen.V m c main_v2 : S1x256.Idx → EReal)
    = shapeCast S1x256 (m ((c.tc : Thread nD τ).loc main_arg5) : S256.Idx → EReal) Gen.shapeCasts_S256_S1x256 := by
  dsimp only [Gen.V, Gen.hostOps0]; after_results; rfl
theorem V_v3 : (Gen.V m c main_v3 : S1x128.Idx → EReal)
    = shapeCast S1x128 (m ((c.tc : Thread nD τ).loc main_arg7) : S128.Idx → EReal) Gen.shapeCasts_S128_S1x128 := by
  dsimp only [Gen.V, Gen.hostOps0]; after_results; rfl
theorem V_v4 : (Gen.V m c main_v4 : S1x64.Idx → EReal)
    = shapeCast S1x64 (m ((c.tc : Thread nD τ).loc main_arg9) : S64.Idx → EReal) Gen.shapeCasts_S64_S1x64 := by
  dsimp only [Gen.V, Gen.hostOps0]; after_results; rfl

/-- Window 3's one row carries the first bias vector. -/
theorem iblk3 (t : Fin cfg0.N) (q : Fin 128) :
    (Gen.iblk m c 3 t : S1x128.Idx → EReal) (ix2 0 q) = m ((c.tc : Thread nD τ).loc main_arg3) (ix1 q) := by
  unfold Gen.iblk
  show Gen.V m c main_v0 (((cfg0.win 3).blk t).view.emb (ix2 0 q)) = _
  have he : ((cfg0.win 3).blk t).view.emb (ix2 (0 : Fin 1) q) = (ix2 (0 : Fin 1) q : S1x128.Idx) := by
    funext a; apply Fin.ext
    match a with
    | ⟨0, _⟩ => show 0 * 1 + 1 * 0 = 0; rfl
    | ⟨1, _⟩ => show 0 * 128 + 1 * q.val = q.val; omega
  rw [he]
  exact (congrFun (V_v0 m c) (ix2 0 q)).trans (shapeCast_a_1a_apply _ _ 0 q)

/-- Window 4's one row carries the normalisation's scale vector. -/
theorem iblk4 (t : Fin cfg0.N) (q : Fin 256) :
    (Gen.iblk m c 4 t : S1x256.Idx → EReal) (ix2 0 q) = m ((c.tc : Thread nD τ).loc main_arg4) (ix1 q) := by
  unfold Gen.iblk
  show Gen.V m c main_v1 (((cfg0.win 4).blk t).view.emb (ix2 0 q)) = _
  have he : ((cfg0.win 4).blk t).view.emb (ix2 (0 : Fin 1) q) = (ix2 (0 : Fin 1) q : S1x256.Idx) := by
    funext a; apply Fin.ext
    match a with
    | ⟨0, _⟩ => show 0 * 1 + 1 * 0 = 0; rfl
    | ⟨1, _⟩ => show 0 * 256 + 1 * q.val = q.val; omega
  rw [he]
  exact (congrFun (V_v1 m c) (ix2 0 q)).trans (shapeCast_a_1a_apply _ _ 0 q)

/-- Window 5's one row carries the normalisation's shift vector. -/
theorem iblk5 (t : Fin cfg0.N) (q : Fin 256) :
    (Gen.iblk m c 5 t : S1x256.Idx → EReal) (ix2 0 q) = m ((c.tc : Thread nD τ).loc main_arg5) (ix1 q) := by
  unfold Gen.iblk
  show Gen.V m c main_v2 (((cfg0.win 5).blk t).view.emb (ix2 0 q)) = _
  have he : ((cfg0.win 5).blk t).view.emb (ix2 (0 : Fin 1) q) = (ix2 (0 : Fin 1) q : S1x256.Idx) := by
    funext a; apply Fin.ext
    match a with
    | ⟨0, _⟩ => show 0 * 1 + 1 * 0 = 0; rfl
    | ⟨1, _⟩ => show 0 * 256 + 1 * q.val = q.val; omega
  rw [he]
  exact (congrFun (V_v2 m c) (ix2 0 q)).trans (shapeCast_a_1a_apply _ _ 0 q)

/-- Window 7's one row carries the second bias vector. -/
theorem iblk7 (t : Fin cfg0.N) (q : Fin 128) :
    (Gen.iblk m c 7 t : S1x128.Idx → EReal) (ix2 0 q) = m ((c.tc : Thread nD τ).loc main_arg7) (ix1 q) := by
  unfold Gen.iblk
  show Gen.V m c main_v3 (((cfg0.win 7).blk t).view.emb (ix2 0 q)) = _
  have he : ((cfg0.win 7).blk t).view.emb (ix2 (0 : Fin 1) q) = (ix2 (0 : Fin 1) q : S1x128.Idx) := by
    funext a; apply Fin.ext
    match a with
    | ⟨0, _⟩ => show 0 * 1 + 1 * 0 = 0; rfl
    | ⟨1, _⟩ => show 0 * 128 + 1 * q.val = q.val; omega
  rw [he]
  exact (congrFun (V_v3 m c) (ix2 0 q)).trans (shapeCast_a_1a_apply _ _ 0 q)

/-- Window 9's one row carries the third bias vector. -/
theorem iblk9 (t : Fin cfg0.N) (q : Fin 64) :
    (Gen.iblk m c 9 t : S1x64.Idx → EReal) (ix2 0 q) = m ((c.tc : Thread nD τ).loc main_arg9) (ix1 q) := by
  unfold Gen.iblk
  show Gen.V m c main_v4 (((cfg0.win 9).blk t).view.emb (ix2 0 q)) = _
  have he : ((cfg0.win 9).blk t).view.emb (ix2 (0 : Fin 1) q) = (ix2 (0 : Fin 1) q : S1x64.Idx) := by
    funext a; apply Fin.ext
    match a with
    | ⟨0, _⟩ => show 0 * 1 + 1 * 0 = 0; rfl
    | ⟨1, _⟩ => show 0 * 64 + 1 * q.val = q.val; omega
  rw [he]
  exact (congrFun (V_v4 m c) (ix2 0 q)).trans (shapeCast_a_1a_apply _ _ 0 q)

/-! ## (c) The adjacency stream -/

/-- Below point 25 the adjacency block at point j is rows 400·j … 400·j + 399 of the first adjacency matrix. -/
theorem iblk1_lo (j : Fin 25) (t : Fin cfg0.N) (ht : t.val = j.val) (r : Fin 400) (k : Fin 10000) :
    (Gen.iblk m c 1 t : S1x400x10000.Idx → EReal) (ix3 0 r k)
      = m ((c.tc : Thread nD τ).loc main_arg1) (ix3 (0 : Fin 2) (Cert.Spec.row j r) k : S2x10000x10000.Idx) := by
  unfold Gen.iblk
  rw [show Gen.V m c (Pipeline.arrRef spec0 1) = m ((c : Thread nD τ).loc main_arg1) from Gen.V_main_arg1 m c]
  show m ((c : Thread nD τ).loc main_arg1) (((cfg0.win 1).blk t).view.emb (ix3 0 r k)) = _
  refine congrArg (m ((c : Thread nD τ).loc main_arg1)) (funext fun a => Fin.ext ?_)
  obtain ⟨e0, e1, e2⟩ := idx1 t
  have hj := j.isLt
  match a with
  | ⟨0, _⟩ => show win0_1.index t (0 : Fin 3) * 1 + 1 * 0 = 0; rw [e0, if_neg (by omega)]
  | ⟨1, _⟩ => show win0_1.index t (1 : Fin 3) * 400 + 1 * r.val = 400 * j.val + r.val; rw [e1, if_neg (by omega)]; omega
  | ⟨2, _⟩ => show win0_1.index t (2 : Fin 3) * 10000 + 1 * k.val = k.val; rw [e2]; omega

/-- From point 25 on the adjacency block at point 25 + j is rows 400·j … 400·j + 399 of the second adjacency matrix. -/
theorem iblk1_hi (j : Fin 25) (t : Fin cfg0.N) (ht : t.val = 25 + j.val) (r : Fin 400) (k : Fin 10000) :
    (Gen.iblk m c 1 t : S1x400x10000.Idx → EReal) (ix3 0 r k)
      = m ((c.tc : Thread nD τ).loc main_arg1) (ix3 (1 : Fin 2) (Cert.Spec.row j r) k : S2x10000x10000.Idx) := by
  unfold Gen.iblk
  rw [show Gen.V m c (Pipeline.arrRef spec0 1) = m ((c : Thread nD τ).loc main_arg1) from Gen.V_main_arg1 m c]
  show m ((c : Thread nD τ).loc main_arg1) (((cfg0.win 1).blk t).view.emb (ix3 0 r k)) = _
  refine congrArg (m ((c : Thread nD τ).loc main_arg1)) (funext fun a => Fin.ext ?_)
  obtain ⟨e0, e1, e2⟩ := idx1 t
  match a with
  | ⟨0, _⟩ => show win0_1.index t (0 : Fin 3) * 1 + 1 * 0 = 1; rw [e0, if_pos (by omega)]
  | ⟨1, _⟩ => show win0_1.index t (1 : Fin 3) * 400 + 1 * r.val = 400 * j.val + r.val; rw [e1, if_pos (by omega)]; omega
  | ⟨2, _⟩ => show win0_1.index t (2 : Fin 3) * 10000 + 1 * k.val = k.val; rw [e2]; omega

/-! ## (d) Rows of a whole scratch array through the filling point's rectangle -/

/-- At a filling point j the rectangle of 400 rows from row 400·j of a whole 10000 × 128 array reads, at (r, q), the array
    at (400·j + r, q): the rectangle's offset is 400 times the grid coordinate. -/
theorem ld_rows (H : Vec Ideal S10000x128 .f32) (j : Fin 25) (t : Fin cfg0.N) (ht : t.val = j.val)
    (h : k0_cond2 (grid0.coords t) = 1#1) (r : Fin 400) (q : Fin 128) :
    View.ld H (Rect.unit (s := S10000x128) (k0_off1 (grid0.coords t)) S400x128.size (Gen.k0_off1_inb (grid0.coords t) h)) (ix2 r q)
      = H (ix2 (Cert.Spec.row j r) q) := by
  show H ((Rect.unit (s := S10000x128) (k0_off1 (grid0.coords t)) S400x128.size (Gen.k0_off1_inb (grid0.coords t) h)).idx (ix2 r q)) = _
  refine congrArg H (funext fun a => Fin.ext ?_)
  match a with
  | ⟨0, _⟩ =>
    show k0_off1 (grid0.coords t) 0 + 1 * r.val = 400 * j.val + r.val
    rw [Gen.k0_off1_eq]
    show 400 * (grid0.coords t 0).val + 1 * r.val = 400 * j.val + r.val
    rw [coords0 t]; omega
  | ⟨1, _⟩ =>
    show k0_off1 (grid0.coords t) 1 + 1 * q.val = q.val
    rw [Gen.k0_off1_eq]
    show 0 + 1 * q.val = q.val
    omega

/-! ## (e) The result window's block in the result array -/

/-- At point 25 + j the result window's block element (r, q) sits at (400·j + r, q) of the result array. -/
theorem emb10 (j : Fin 25) (t : Fin cfg0.N) (ht : t.val = 25 + j.val) (r : Fin 400) (q : Fin 64) :
    ((cfg0.win 10).blk t).view.emb (ix2 r q : S400x64.Idx) = (ix2 (Cert.Spec.row j r) q : S10000x64.Idx) := by
  funext a; apply Fin.ext
  obtain ⟨e0, e1⟩ := idx10 t
  match a with
  | ⟨0, _⟩ => show win0_10.index t (0 : Fin 2) * 400 + 1 * r.val = 400 * j.val + r.val; rw [e0, if_pos (by omega)]; omega
  | ⟨1, _⟩ => show win0_10.index t (1 : Fin 2) * 64 + 1 * q.val = q.val; rw [e1]; omega

/-- An index of the result array is in point t's block iff each coordinate is in the block's range on its axis. -/
theorem mem_blk10 (t : Fin cfg0.N) (i : S10000x64.Idx) :
    i ∈ ((cfg0.win 10).blk t).view.set ↔ ∀ a : Fin 2, win0_10.index t a * S400x64.size a ≤ (i a).val
      ∧ (i a).val < win0_10.index t a * S400x64.size a + S400x64.size a := by
  show i ∈ ((View.whole main_v5).slice (win0_10.rect t)).set ↔ _
  rw [View.set_slice_whole, Rect.mem_set_unit]
  exact Iff.rfl

/-- Every index of the result array is in the block of a point that writes back: row p is written at point 25 + p / 400. -/
theorem cover10 (i : S10000x64.Idx) :
    ∃ t : Fin cfg0.N, (cfg0.win 10).flush t = true ∧ i ∈ ((cfg0.win 10).blk t).view.set := by
  have hi0 : (i 0).val < 10000 := (i 0).isLt
  have hi1 : (i 1).val < 64 := (i 1).isLt
  have hN : cfg0.N = 50 := Gen.N_0
  have hlt : 25 + (i 0).val / 400 < cfg0.N := by rw [hN]; omega
  refine ⟨⟨25 + (i 0).val / 400, hlt⟩, (flush10_iff _).mpr (by show 25 ≤ 25 + (i 0).val / 400; omega), ?_⟩
  rw [mem_blk10]
  obtain ⟨e0, e1⟩ := idx10 ⟨25 + (i 0).val / 400, hlt⟩
  rw [if_pos (by show 25 ≤ 25 + (i 0).val / 400; omega)] at e0
  have e0' : win0_10.index ⟨25 + (i 0).val / 400, hlt⟩ (0 : Fin 2) = (i 0).val / 400 := by
    rw [e0]; show 25 + (i 0).val / 400 - 25 = (i 0).val / 400; omega
  intro a
  match a with
  | ⟨0, _⟩ =>
    show win0_10.index ⟨25 + (i 0).val / 400, hlt⟩ (0 : Fin 2) * 400 ≤ (i 0).val
      ∧ (i 0).val < win0_10.index ⟨25 + (i 0).val / 400, hlt⟩ (0 : Fin 2) * 400 + 400
    rw [e0']; omega
  | ⟨1, _⟩ =>
    show win0_10.index ⟨25 + (i 0).val / 400, hlt⟩ (1 : Fin 2) * 64 ≤ (i 1).val
      ∧ (i 1).val < win0_10.index ⟨25 + (i 0).val / 400, hlt⟩ (1 : Fin 2) * 64 + 64
    rw [e1]; omega

end Cert.KernelIdeal.BlockValue

end
-- ==== Proof.PayOps.lean ====
/-
  The operations a block of this kernel is built from, each read at an index given by coordinates: a plain
  rows-by-columns product into the zero accumulator is the sum over the contracted coordinate; a column [a,1] spread
  along the lanes reads its row; a vector [a] viewed as a column [a,1] reads its entry; two blocks set side by side
  along the lanes read the left block below the seam and the right block from the seam on; a sum along the lanes is
  the sum over the lane coordinate. All over arbitrary extents and operands.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayValue

open Idealize.ShloMosaic Idealize.ShloMosaic.ValueIdx

variable {α : Type}

/-! ## A plain product read at an index -/

/-- The product of an m×k by a k×n matrix (contracting the left operand's columns against the right operand's rows, no
    batch axis) accumulated into the zero splat is, at (a, b), the sum over c of A(a, c) · B(c, b). -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Layout operations at an index -/

/-- A column [a, 1] spread along the lanes to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two blocks [a, b₁] and [a, b₂] set side by side along the lanes: at (p, c) with c below the seam b₁, the left block
    at (p, c). -/
theorem concatenate_lanes_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (c : Fin n) (c' : Fin b₁)
    (hc : c'.val = c.val) :
    concatenate ⟨2, ![a, n]⟩ 1 [⟨⟨2, ![a, b₁]⟩, x₁⟩, ⟨⟨2, ![a, b₂]⟩, x₂⟩] h (ix2 p c) = x₁ (ix2 p c') :=
  concatenate_pair_apply_left 1 x₁ x₂ h (ix2 p c) rfl (ix2 p c') (fun b => by
    match b with
    | ⟨0, _⟩ => rfl
    | ⟨1, _⟩ => exact hc)

/-- … and at (p, c) with c from the seam on, the right block at (p, c − b₁). -/
theorem concatenate_lanes_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (c : Fin n) (c' : Fin b₂)
    (hc : c'.val + b₁ = c.val) :
    concatenate ⟨2, ![a, n]⟩ 1 [⟨⟨2, ![a, b₁]⟩, x₁⟩, ⟨⟨2, ![a, b₂]⟩, x₂⟩] h (ix2 p c) = x₂ (ix2 p c') :=
  concatenate_pair_apply_right 1 x₁ x₂ h (ix2 p c) rfl rfl (ix2 p c') (fun b hb => by
    match b, hb with
    | ⟨0, _⟩, _ => rfl
    | ⟨1, _⟩, hb => exact absurd rfl hb) hc

/-! ## A sum along the lanes -/

/-- The sum of an [a, b] block along its lanes, from the zero word, is at row r the sum over the lane coordinate. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext ax; apply Fin.ext
  match ax with
  | ⟨0, _⟩ => rfl
  | ⟨1, _⟩ => rfl

end Cert.KernelIdeal.PayValue

end
-- ==== Proof.PayH.lean ====
/-
  The first stored block of the kernel: the whole first scratch array. With the bias row b1r carrying the bias
  vector b1 on its one row, the stored value at (p, q) is the sum over k of x(p, k) · W1(k, q) plus b1(q): the
  specification's first layer.
-/
import proofs.«131238_g51342039056724_cont_sun_c4_361_21_alg».proof.Proof.Gen.KernelIdeal.Skeleton
import proofs.«131238_g51342039056724_cont_sun_c4_361_21_alg».proof.Proof.Spec
import proofs.«131238_g51342039056724_cont_sun_c4_361_21_alg».proof.Proof.PayOps
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The first payload is the specification's first layer, as arrays. -/
theorem pay1_eq (x : Vec Ideal S10000x128 .f32) (W1 : Vec Ideal S128x128 .f32) (b1 : Vec Ideal S128 .f32)
    (b1r : Vec Ideal S1x128 .f32) (hb : ∀ q : Fin 128, b1r (ix2 0 q) = b1 (ix1 q)) :
    Gen.k0_pay1 (F := Ideal) x W1 b1r = Cert.Spec.h1 x W1 b1 := by
  funext i
  obtain ⟨p, q, rfl⟩ : ∃ (p : Fin 10000) (q : Fin 128), i = ix2 p q := ⟨i 0, i 1, eq_ix2 i⟩
  rw [Cert.Spec.h1_apply, ← hb q]
  unfold Gen.k0_pay1
  simp only [shapeCast_self]
  refine congrArg₂ (· + ·) ?_ ?_
  · exact matmul_plain_zero_apply _ none x W1 p q
  · exact broadcastTo_1b_ab_apply b1r _ p q

end Cert.KernelIdeal.PayValue

end
-- ==== Proof.PayT.lean ====
/-
  The second stored block of the kernel: 400 rows of the second scratch array. The block's rows of the concatenation
  [H | adjs[0]·H] are formed from the block of H and the adjacency block, normalised along the lanes (mean, centred
  values, the reciprocal square root of the variance plus eps), scaled and shifted by the two rows gr, br, cut at zero,
  multiplied by W2 and shifted by the bias row. Stage by stage each value is read at an index; with the blocks carrying
  rows 400·j … 400·j+399 the result at (r, q) is the specification's second layer at row 400·j + r.
-/
import proofs.«131238_g51342039056724_cont_sun_c4_361_21_alg».proof.Proof.Gen.KernelIdeal.Skeleton
import proofs.«131238_g51342039056724_cont_sun_c4_361_21_alg».proof.Proof.Spec
import proofs.«131238_g51342039056724_cont_sun_c4_361_21_alg».proof.Proof.PayOps
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The stages of the block's computation, as functions of the values before them -/

/-- The block's rows of the concatenation: the block of the first scratch array beside the product of the adjacency
    block with the whole first scratch array. -/
def kCat (ablk : FVec Ideal S1x400x10000 .f32) (H : FVec Ideal S10000x128 .f32) (Hblk : FVec Ideal S400x128 .f32) :
    FVec Ideal S400x256 .f32 :=
  concatenate S400x256 1 [⟨S400x128, Hblk⟩, ⟨S400x128, matmul dot_S400x10000_S10000x128_S400x128_1_0_0_1_n_n none
    (shapeCast S400x10000 ablk shapeCasts_S1x400x10000_S400x10000) H (constant S400x128 .f32 0x00000000#32)⟩]
    concatenates_S400x128_S400x128_S400x256_d1

/-- The lane mean of each row, as a column: the lane sum over 256. -/
def kMean (v : FVec Ideal S400x256 .f32) : FVec Ideal S400x1 .f32 :=
  divf (shapeCast S400x1 (multiReduction .add [1] S400 v 0x00000000#32 reduces_S400x256_S400 (.inl rfl) rfl) shapeCasts_S400_S400x1)
    (broadcast S400x1 (Scalar.ofBits .f32 0x43800000#32))

/-- The rows less their means. -/
def kCen (v : FVec Ideal S400x256 .f32) : FVec Ideal S400x256 .f32 :=
  subf v (broadcastTo S400x256 (kMean v) broadcasts_S400x1_S400x256)

/-- The reciprocal square root of each row's variance plus eps, as a column. -/
def kRstd (v : FVec Ideal S400x256 .f32) : FVec Ideal S400x1 .f32 :=
  rsqrt (addf (divf (shapeCast S400x1 (multiReduction .add [1] S400 (mulf (kCen v) (kCen v)) 0x00000000#32
          reduces_S400x256_S400 (.inl rfl) rfl) shapeCasts_S400_S400x1)
        (broadcast S400x1 (Scalar.ofBits .f32 0x43800000#32)))
      (broadcast S400x1 (Scalar.ofBits .f32 0x3727C5AC#32)))

/-- The normalised rows scaled by gr, shifted by br and cut at zero. -/
def kAct (v : FVec Ideal S400x256 .f32) (gr br : FVec Ideal S1x256 .f32) : FVec Ideal S400x256 .f32 :=
  maximumf (addf (mulf (mulf (kCen v) (broadcastTo S400x256 (kRstd v) broadcasts_S400x1_S400x256))
        (broadcastTo S400x256 (shapeCast S1x256 gr shapeCasts_S1x256_S1x256) broadcasts_S1x256_S400x256))
      (broadcastTo S400x256 (shapeCast S1x256 br shapeCasts_S1x256_S1x256) broadcasts_S1x256_S400x256))
    (broadcast S400x256 (Scalar.ofBits .f32 0x00000000#32))

/-- The payload is the product of the last stage with W2 into the zero accumulator. -/
theorem pay4_stages (ablk : FVec Ideal S1x400x10000 .f32) (H : FVec Ideal S10000x128 .f32) (Hblk : FVec Ideal S400x128 .f32)
    (gr br : FVec Ideal S1x256 .f32) (W2 : FVec Ideal S256x128 .f32) :
    Gen.k0_pay4 (F := Ideal) ablk H Hblk gr br W2
      = matmul dot_S400x256_S256x128_S400x128_1_0_0_1_n_n none (kAct (kCat ablk H Hblk) gr br) W2
          (constant S400x128 .f32 0x00000000#32) := rfl

/-! ## Each stage at an index -/

/-- The reciprocal square root of a vector at an index is that of the element. -/
theorem rsqrt_apply {s : Shape} {φ : FTy} (a : FVec Ideal s φ) (i : s.Idx) : rsqrt a i = Ideal.rsqrt (a i) := rfl

theorem kCat_left (ablk : FVec Ideal S1x400x10000 .f32) (H : FVec Ideal S10000x128 .f32) (Hblk : FVec Ideal S400x128 .f32)
    (r : Fin 400) (c : Fin 256) (hc : c.val < 128) :
    kCat ablk H Hblk (ix2 r c) = Hblk (ix2 r ⟨c.val, hc⟩) :=
  concatenate_lanes_left Hblk _ _ r c ⟨c.val, hc⟩ rfl

theorem kCat_right (ablk : FVec Ideal S1x400x10000 .f32) (H : FVec Ideal S10000x128 .f32) (Hblk : FVec Ideal S400x128 .f32)
    (r : Fin 400) (c : Fin 256) (hc : ¬ c.val < 128) :
    kCat ablk H Hblk (ix2 r c)
      = ∑ k : Fin 10000, ablk (ix3 0 r k) * H (ix2 k ⟨c.val - 128, by have := c.isLt; omega⟩) := by
  refine (concatenate_lanes_right Hblk _ _ r c ⟨c.val - 128, by have := c.isLt; omega⟩
    (by show c.val - 128 + 128 = c.val; omega)).trans ?_
  refine (matmul_plain_zero_apply _ none _ H r _).trans ?_
  exact Finset.sum_congr rfl fun k _ => congrArg (· * H (ix2 k _)) (shapeCast_1ab_ab_apply ablk _ r k)

theorem kMean_apply (v : FVec Ideal S400x256 .f32) (r : Fin 400) (u : Fin 1) :
    kMean v (ix2 r u) = Ideal.div (∑ c : Fin 256, v (ix2 r c)) (Ideal.ofBits .f32 0x43800000#32) := by
  unfold kMean
  rw [divf_apply, broadcast_apply]
  refine congrArg (fun s => Ideal.div s (Ideal.ofBits .f32 0x43800000#32)) ?_
  refine (shapeCast_a_a1_apply _ _ r u).trans ?_
  exact laneSum_apply v _ _ _ r

theorem kCen_apply (v : FVec Ideal S400x256 .f32) (r : Fin 400) (c : Fin 256) :
    kCen v (ix2 r c) = v (ix2 r c) - kMean v (ix2 r 0) := by
  unfold kCen
  rw [subf_apply]
  exact congrArg (v (ix2 r c) - ·) (broadcastTo_a1_ab_apply _ _ r c)

theorem kRstd_apply (v : FVec Ideal S400x256 .f32) (r : Fin 400) (u : Fin 1) :
    kRstd v (ix2 r u)
      = Ideal.rsqrt (Ideal.div (∑ c : Fin 256, kCen v (ix2 r c) * kCen v (ix2 r c)) (Ideal.ofBits .f32 0x43800000#32)
          + Ideal.ofBits .f32 0x3727C5AC#32) := by
  unfold kRstd
  rw [rsqrt_apply, addf_apply, divf_apply, broadcast_apply, broadcast_apply]
  refine congrArg (fun s => Ideal.rsqrt (Ideal.div s (Ideal.ofBits .f32 0x43800000#32) + Ideal.ofBits .f32 0x3727C5AC#32)) ?_
  refine (shapeCast_a_a1_apply _ _ r u).trans ?_
  refine (laneSum_apply _ _ _ _ r).trans ?_
  exact Finset.sum_congr rfl fun c _ => mulf_apply _ _ _

theorem kAct_apply (v : FVec Ideal S400x256 .f32) (gr br : FVec Ideal S1x256 .f32) (r : Fin 400) (c : Fin 256) :
    kAct v gr br (ix2 r c) = max (kCen v (ix2 r c) * kRstd v (ix2 r 0) * gr (ix2 0 c) + br (ix2 0 c)) 0 := by
  have hz : (Scalar.ofBits .f32 0x00000000#32 : Ideal .f32) = 0 := Ideal.ofBits_zero_f32
  unfold kAct
  rw [maximumf_apply, broadcast_apply, hz, addf_apply, mulf_apply, mulf_apply, shapeCast_self, shapeCast_self,
    broadcastTo_a1_ab_apply _ _ r c, broadcastTo_1b_ab_apply gr _ r c, broadcastTo_1b_ab_apply br _ r c]

/-! ## The stages against the specification -/

section Against
variable (j : Fin 25) (adjs : Vec Ideal S2x10000x10000 .f32) (H : FVec Ideal S10000x128 .f32)
  (ablk : FVec Ideal S1x400x10000 .f32) (Hblk : FVec Ideal S400x128 .f32)
  (ha : ∀ (r : Fin 400) (k : Fin 10000), ablk (ix3 0 r k) = adjs (ix3 0 (Cert.Spec.row j r) k))
  (hH : ∀ (r : Fin 400) (q : Fin 128), Hblk (ix2 r q) = H (ix2 (Cert.Spec.row j r) q))
include ha hH

/-- The block's rows of the concatenation are rows 400·j … of the specification's. -/
theorem kCat_eq_cat (r : Fin 400) (c : Fin 256) :
    kCat ablk H Hblk (ix2 r c) = Cert.Spec.cat H adjs (Cert.Spec.row j r) c := by
  unfold Cert.Spec.cat
  by_cases hc : c.val < 128
  · rw [dif_pos hc, kCat_left _ _ _ r c hc]
    exact hH r ⟨c.val, hc⟩
  · rw [dif_neg hc, kCat_right _ _ _ r c hc]
    unfold Cert.Spec.agg0
    exact Finset.sum_congr rfl fun k _ => congrArg (· * H (ix2 k _)) (ha r k)

theorem kMean_eq_mean (r : Fin 400) (u : Fin 1) :
    kMean (kCat ablk H Hblk) (ix2 r u) = Cert.Spec.mean H adjs (Cert.Spec.row j r) := by
  rw [kMean_apply]
  unfold Cert.Spec.mean
  exact congrArg (fun s => Ideal.div s (Ideal.ofBits .f32 0x43800000#32))
    (Finset.sum_congr rfl fun c _ => kCat_eq_cat j adjs H ablk Hblk ha hH r c)

theorem kCen_eq (r : Fin 400) (c : Fin 256) :
    kCen (kCat ablk H Hblk) (ix2 r c)
      = Cert.Spec.cat H adjs (Cert.Spec.row j r) c - Cert.Spec.mean H adjs (Cert.Spec.row j r) := by
  rw [kCen_apply, kCat_eq_cat j adjs H ablk Hblk ha hH r c, kMean_eq_mean j adjs H ablk Hblk ha hH r 0]

theorem kRstd_eq (r : Fin 400) (u : Fin 1) :
    kRstd (kCat ablk H Hblk) (ix2 r u) = Ideal.rsqrt (Cert.Spec.veps H adjs (Cert.Spec.row j r)) := by
  rw [kRstd_apply]
  unfold Cert.Spec.veps Cert.Spec.var
  refine congrArg (fun s => Ideal.rsqrt (Ideal.div s (Ideal.ofBits .f32 0x43800000#32) + Ideal.ofBits .f32 0x3727C5AC#32)) ?_
  exact Finset.sum_congr rfl fun c _ => by rw [kCen_eq j adjs H ablk Hblk ha hH r c]

end Against

/-- The second payload at (r, q) is the specification's second layer over the first scratch array, at row 400·j + r. -/
theorem payT_eq (j : Fin 25) (adjs : Vec Ideal S2x10000x10000 .f32) (H : Vec Ideal S10000x128 .f32)
    (g bb : Vec Ideal S256 .f32) (W2 : Vec Ideal S256x128 .f32) (b2 : Vec Ideal S128 .f32)
    (ablk : Vec Ideal S1x400x10000 .f32) (Hblk : Vec Ideal S400x128 .f32) (gr br : Vec Ideal S1x256 .f32)
    (b2r : Vec Ideal S1x128 .f32)
    (ha : ∀ (r : Fin 400) (k : Fin 10000), ablk (ix3 0 r k) = adjs (ix3 0 (Cert.Spec.row j r) k))
    (hH : ∀ (r : Fin 400) (q : Fin 128), Hblk (ix2 r q) = H (ix2 (Cert.Spec.row j r) q))
    (hg : ∀ q : Fin 256, gr (ix2 0 q) = g (ix1 q)) (hbb : ∀ q : Fin 256, br (ix2 0 q) = bb (ix1 q))
    (hb2 : ∀ q : Fin 128, b2r (ix2 0 q) = b2 (ix1 q)) (r : Fin 400) (q : Fin 128) :
    Gen.k0_pay2 (F := Ideal) (Gen.k0_pay4 (F := Ideal) ablk H Hblk gr br W2) b2r (ix2 r q)
      = Cert.Spec.tOf H adjs g bb W2 b2 (ix2 (Cert.Spec.row j r) q) := by
  rw [Cert.Spec.tOf_apply, ← hb2 q, pay4_stages]
  unfold Gen.k0_pay2
  simp only [shapeCast_self]
  refine congrArg₂ (· + ·) ?_ (broadcastTo_1b_ab_apply b2r _ r q)
  refine (matmul_plain_zero_apply _ none _ W2 r q).trans ?_
  refine Finset.sum_congr rfl fun c _ => congrArg (· * W2 (ix2 c q)) ?_
  rw [kAct_apply, kCen_eq j adjs H ablk Hblk ha hH r c, kRstd_eq j adjs H ablk Hblk ha hH r 0, hg c, hbb c]
  rfl

end Cert.KernelIdeal.PayValue

end
-- ==== Proof.PayOut.lean ====
/-
  The last stored block of the kernel: 400 rows of the result. With the adjacency block carrying rows 400·j … 400·j+399
  of the second adjacency matrix and the bias row b3r carrying b3, the stored value at (r, q) is the sum over k of
  max (Σ k', adjs[1](400·j + r, k') · T(k', k)) 0 · W3(k, q), plus b3(q): the specification's third layer at row 400·j + r.
-/
import proofs.«131238_g51342039056724_cont_sun_c4_361_21_alg».proof.Proof.Gen.KernelIdeal.Skeleton
import proofs.«131238_g51342039056724_cont_sun_c4_361_21_alg».proof.Proof.Spec
import proofs.«131238_g51342039056724_cont_sun_c4_361_21_alg».proof.Proof.PayOps
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The last payload at (r, q) is the specification's third layer over the second scratch array, at row 400·j + r. -/
theorem payOut_eq (j : Fin 25) (adjs : Vec Ideal S2x10000x10000 .f32) (T : Vec Ideal S10000x128 .f32)
    (W3 : Vec Ideal S128x64 .f32) (b3 : Vec Ideal S64 .f32) (ablk : Vec Ideal S1x400x10000 .f32) (b3r : Vec Ideal S1x64 .f32)
    (ha : ∀ (r : Fin 400) (k : Fin 10000), ablk (ix3 0 r k) = adjs (ix3 1 (Cert.Spec.row j r) k))
    (hb3 : ∀ q : Fin 64, b3r (ix2 0 q) = b3 (ix1 q)) (r : Fin 400) (q : Fin 64) :
    Gen.k0_pay3 (F := Ideal) ablk T W3 b3r (ix2 r q) = Cert.Spec.outOf T adjs W3 b3 (ix2 (Cert.Spec.row j r) q) := by
  have hz : (Scalar.ofBits .f32 0x00000000#32 : Ideal .f32) = 0 := Ideal.ofBits_zero_f32
  rw [Cert.Spec.outOf_apply, ← hb3 q]
  unfold Gen.k0_pay3
  simp only [shapeCast_self]
  refine congrArg₂ (· + ·) ?_ (broadcastTo_1b_ab_apply b3r _ r q)
  refine (matmul_plain_zero_apply _ none _ W3 r q).trans ?_
  refine Finset.sum_congr rfl fun k _ => congrArg (· * W3 (ix2 k q)) ?_
  rw [maximumf_apply, broadcast_apply, hz]
  refine congrArg (max · 0) ?_
  refine (matmul_plain_zero_apply _ none _ T r k).trans ?_
  refine Finset.sum_congr rfl fun k' _ => congrArg (· * T (ix2 k' k)) ?_
  exact (shapeCast_1ab_ab_apply ablk _ r k').trans (ha r k')

end Cert.KernelIdeal.PayValue

end
-- ==== Proof.KValue.lean ====
/-
  The kernel's value. The first scratch array after the first grid point is the specification's first
  layer; the second scratch array, once its twenty-five blocks of 400 rows are stored, is the
  specification's second layer; every emitting point stores one block of 400 rows of the specification's
  result, and the twenty-five blocks tile the result array. So the run ends with the result array at
  the specification's result of the ten argument arrays, and the arguments as they were.
-/
import proofs.«131238_g51342039056724_cont_sun_c4_361_21_alg».proof.Proof.KRun
import proofs.«131238_g51342039056724_cont_sun_c4_361_21_alg».proof.Proof.KBlocks
import proofs.«131238_g51342039056724_cont_sun_c4_361_21_alg».proof.Proof.PayH
import proofs.«131238_g51342039056724_cont_sun_c4_361_21_alg».proof.Proof.PayT
import proofs.«131238_g51342039056724_cont_sun_c4_361_21_alg».proof.Proof.PayOut
import proofs.«131238_g51342039056724_cont_sun_c4_361_21_alg».proof.Proof.Spec
import Idealize.ShloMosaic.Lib.Pipeline.Value

set_option maxRecDepth 16384

noncomputable section

namespace Cert.KernelIdeal.KValue

open Cert.KernelIdeal Cert.KernelIdeal.Gen Cert.KernelIdeal.Hand Cert.KernelIdeal.BlockValue Cert.KernelIdeal.PayValue
open Idealize.ShloMosaic Idealize.ShloMosaic.TcCoe Idealize.SL.Sem Idealize.ShloMosaic.ValueIdx
open Idealize.ShloMosaic.Pipeline (Dat)

/-! ## The payloads over blocks given up to equality

The payload lemmas take the weight matrix itself; a point's block of a whole-array window is that
matrix by an equation. Stated over variables, the equation substituted. -/

/-- The second payload over a weight block equal to `W2`. -/
theorem fill_at (j : Fin 25) (adjs : Vec Ideal S2x10000x10000 .f32) (H : Vec Ideal S10000x128 .f32)
    (g bb : Vec Ideal S256 .f32) (W2 : Vec Ideal S256x128 .f32) (b2 : Vec Ideal S128 .f32)
    (ablk : Vec Ideal S1x400x10000 .f32) (Hblk : Vec Ideal S400x128 .f32) (gr br : Vec Ideal S1x256 .f32)
    (W2' : Vec Ideal S256x128 .f32) (b2r : Vec Ideal S1x128 .f32) (hW : W2' = W2)
    (ha : ∀ (r : Fin 400) (k : Fin 10000), ablk (ix3 0 r k) = adjs (ix3 0 (Cert.Spec.row j r) k))
    (hH : ∀ (r : Fin 400) (q : Fin 128), Hblk (ix2 r q) = H (ix2 (Cert.Spec.row j r) q))
    (hg : ∀ q : Fin 256, gr (ix2 0 q) = g (ix1 q)) (hbb : ∀ q : Fin 256, br (ix2 0 q) = bb (ix1 q))
    (hb2 : ∀ q : Fin 128, b2r (ix2 0 q) = b2 (ix1 q)) (r : Fin 400) (q : Fin 128) :
    Gen.k0_pay2 (F := Ideal) (Gen.k0_pay4 (F := Ideal) ablk H Hblk gr br W2') b2r (ix2 r q)
      = Cert.Spec.tOf H adjs g bb W2 b2 (ix2 (Cert.Spec.row j r) q) := by
  subst hW
  exact payT_eq j adjs H g bb W2' b2 ablk Hblk gr br b2r ha hH hg hbb hb2 r q

/-- The third payload over a weight block equal to `W3`. -/
theorem emit_at (j : Fin 25) (adjs : Vec Ideal S2x10000x10000 .f32) (T : Vec Ideal S10000x128 .f32)
    (W3 : Vec Ideal S128x64 .f32) (b3 : Vec Ideal S64 .f32) (ablk : Vec Ideal S1x400x10000 .f32)
    (W3' : Vec Ideal S128x64 .f32) (b3r : Vec Ideal S1x64 .f32) (hW : W3' = W3)
    (ha : ∀ (r : Fin 400) (k : Fin 10000), ablk (ix3 0 r k) = adjs (ix3 1 (Cert.Spec.row j r) k))
    (hb3 : ∀ q : Fin 64, b3r (ix2 0 q) = b3 (ix1 q)) (r : Fin 400) (q : Fin 64) :
    Gen.k0_pay3 (F := Ideal) ablk T W3' b3r (ix2 r q) = Cert.Spec.outOf T adjs W3 b3 (ix2 (Cert.Spec.row j r) q) := by
  subst hW
  exact payOut_eq j adjs T W3' b3 ablk b3r ha hb3 r q

/-- Row `p` of a 10000-row array is row `p % 400` of block `p / 400`. -/
theorem row_div_mod (p : Fin 10000) :
    Cert.Spec.row ⟨p.val / 400, Nat.div_lt_of_lt_mul p.isLt⟩ ⟨p.val % 400, Nat.mod_lt _ (by omega)⟩ = p :=
  Fin.ext (by rw [Cert.Spec.row_val]; exact Nat.div_add_mod p.val 400)

variable (m : (ℓ : Loc nD τ sig) → Buf (Elt Ideal) ℓ) (ρ : Dev nD → PrngReg)

/-! ## The two scratch arrays -/

/-- The first scratch array is the specification's first layer of the arguments. -/
theorem Hval_eq (c : Dev nD) : Hval (F := Ideal) m c = Cert.Spec.h1 (m ((c.tc : Thread nD τ).loc main_arg0)) (m ((c.tc : Thread nD τ).loc main_arg2)) (m ((c.tc : Thread nD τ).loc main_arg3)) :=
  (congrArg₂ (fun a b => Gen.k0_pay1 (F := Ideal) a b (iblk m c 3 pt0)) (iblk0 m c pt0) (iblk2 m c pt0)).trans
    (pay1_eq (m ((c.tc : Thread nD τ).loc main_arg0)) (m ((c.tc : Thread nD τ).loc main_arg2)) (m ((c.tc : Thread nD τ).loc main_arg3)) (iblk m c 3 pt0) (iblk3 m c pt0))

/-- Block `j` of the second scratch array at (r, q) is the specification's second layer at row 400·j + r. -/
theorem Tblk_apply (c : Dev nD) (j : Fin 25) (r : Fin 400) (q : Fin 128) :
    Tblk (F := Ideal) m c j (ix2 r q)
      = Cert.Spec.tOf (Hval (F := Ideal) m c) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (ix2 (Cert.Spec.row j r) q) := by
  unfold Tblk fillPay rowsOf
  exact fill_at j (m ((c.tc : Thread nD τ).loc main_arg1)) (Hval (F := Ideal) m c) (m ((c.tc : Thread nD τ).loc main_arg4)) (m ((c.tc : Thread nD τ).loc main_arg5)) (m ((c.tc : Thread nD τ).loc main_arg6)) (m ((c.tc : Thread nD τ).loc main_arg7))
    (iblk m c 1 (fillPt j)) _ (iblk m c 4 (fillPt j)) (iblk m c 5 (fillPt j)) (iblk m c 6 (fillPt j)) (iblk m c 7 (fillPt j))
    (iblk6 m c (fillPt j)) (iblk1_lo m c j (fillPt j) rfl) (ld_rows (Hval (F := Ideal) m c) j (fillPt j) rfl (fillPt_inFill j))
    (iblk4 m c (fillPt j)) (iblk5 m c (fillPt j)) (iblk7 m c (fillPt j)) r q

/-- The second scratch array, complete, is the specification's second layer of the arguments. -/
theorem Tfull_eq (c : Dev nD) : Tfull (F := Ideal) m c = Cert.Spec.t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext y
  refine (Tblk_apply m c ⟨(y 0).val / 400, Nat.div_lt_of_lt_mul (y 0).isLt⟩ ⟨(y 0).val % 400, Nat.mod_lt _ (by omega)⟩ (y 1)).trans ?_
  rw [row_div_mod (y 0), Hval_eq m c]
  exact congrArg (Cert.Spec.t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (eq_ix2 y).symm

/-! ## The result's blocks -/

/-- The block an emitting point stores, at (r, q), is the specification's result at row 400·j + r. -/
theorem Oblk_apply (c : Dev nD) (t : Fin cfg0.N) (j : Fin 25) (ht : t.val = 25 + j.val) (r : Fin 400) (q : Fin 64) :
    Oblk (F := Ideal) m c t (ix2 r q) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 (Cert.Spec.row j r) q) := by
  unfold Oblk
  refine (emit_at j (m ((c.tc : Thread nD τ).loc main_arg1)) (Tfull (F := Ideal) m c) (m ((c.tc : Thread nD τ).loc main_arg8)) (m ((c.tc : Thread nD τ).loc main_arg9)) (iblk m c 1 t) (iblk m c 8 t) (iblk m c 9 t)
    (iblk8 m c t) (iblk1_hi m c j t ht) (iblk9 m c t) r q).trans ?_
  rw [Tfull_eq m c]
  rfl

/-- What an emitting point writes back is its block of the specification's result. -/
theorem flushed10_eq (c : Dev nD) (t : Fin cfg0.N) (hf : (cfg0.win 10).flush t = true) :
    (dats m 0 c).flushed 10 t
      = ((cfg0.win 10).blk t).view.read (Elt Ideal) (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  have ht : 25 ≤ t.val := (flush10_iff t).mp hf
  have hN : t.val < 50 := lt_of_lt_of_eq t.isLt N50
  show (cfg0.win 10).cut (grid0.coords t) ((dats m 0 c).after 10 t) = _
  rw [after_10]
  funext x
  obtain ⟨r, q, rfl⟩ : ∃ (r : Fin 400) (q : Fin 64), x = (ix2 r q : S400x64.Idx) :=
    ⟨⟨(x 0).val, (x 0).isLt⟩, ⟨(x 1).val, (x 1).isLt⟩, funext fun a => by match a with | ⟨0, _⟩ => rfl | ⟨1, _⟩ => rfl⟩
  have htj : t.val = 25 + (⟨t.val - 25, by omega⟩ : Fin 25).val := by show t.val = 25 + (t.val - 25); omega
  rw [View.read_apply, emb10 ⟨t.val - 25, by omega⟩ t htj r q]
  exact Oblk_apply m c t ⟨t.val - 25, by omega⟩ htj r q

/-- The result array after the run is the specification's result of the arguments. -/
theorem final_out (c : Dev nD) :
    (dats (F := Ideal) m 0 c).arrAt 10 cfg0.N = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 10 (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (fun t hf => flushed10_eq m c t hf) cover10

/-! ## The run -/

/-- Over the extended reals, from any memory with zero counters: every weakly fair execution of the
    program terminates with the result array at the specification's result of the ten argument arrays
    and the arguments unchanged. -/
theorem run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v5) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 10).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c)⟩)
    (run_main m ρ)

end Cert.KernelIdeal.KValue

end
-- ==== Proof.BBase.lean ====
/-
  The grid of the one pipelined region has fifty points. Point 0 fills the first scratch (all 10000 rows of
  x·W1 + b1); points 0–24 each fill one block of 400 rows of the second scratch; points 25–49 each produce one
  block of 400 rows of the result. This module decides the three branch conditions over the grid, says where
  each window is idle or written back, and names the staging and scratch memrefs the body is called with.
-/
import proofs.«131238_g51342039056724_cont_sun_c4_361_21_alg».proof.Proof.Gen.Kernel.Frame
import proofs.«131238_g51342039056724_cont_sun_c4_361_21_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The first branch's condition (the grid coordinate is zero), as the body computes it. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The second branch's condition: the point is one of the first twenty-five. -/
abbrev inFill (i : grid0.Coords) : Prop := k0_cond2 i = 1#1
theorem inFill_iff : ∀ t : Fin cfg0.N, inFill (grid0.coords t) ↔ t.val < 25 :=
  (by decide +kernel : ∀ t : Fin grid0.N, inFill (grid0.coords t) ↔ t.val < 25)

/-- The third branch's condition: the point is one of the last twenty-five. -/
abbrev inEmit (i : grid0.Coords) : Prop := k0_cond3 i = 1#1
theorem inEmit_iff : ∀ t : Fin cfg0.N, inEmit (grid0.coords t) ↔ 25 ≤ t.val :=
  (by decide +kernel : ∀ t : Fin grid0.N, inEmit (grid0.coords t) ↔ 25 ≤ t.val)

/-- The row offset of the block a filling point works on is 400 times the point. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The result's window is idle exactly at the filling points, -/
theorem idle10_fill : ∀ t : Fin cfg0.N, t.val < 25 → cfg0.idle 10 (grid0.coords t) = true :=
  (by decide +kernel : ∀ t : Fin grid0.N, t.val < 25 → cfg0.idle 10 (grid0.coords t) = true)
theorem live10_emit : ∀ t : Fin cfg0.N, 25 ≤ t.val → cfg0.idle 10 (grid0.coords t) = false :=
  (by decide +kernel : ∀ t : Fin grid0.N, 25 ≤ t.val → cfg0.idle 10 (grid0.coords t) = false)
/-- and written back exactly at the emitting points. -/
theorem noflush10_fill : ∀ t : Fin cfg0.N, t.val < 25 → (cfg0.win 10).flush t = false :=
  (by decide +kernel : ∀ t : Fin grid0.N, t.val < 25 → win0_10.flush t = false)
theorem flush10_emit : ∀ t : Fin cfg0.N, 25 ≤ t.val → (cfg0.win 10).flush t = true :=
  (by decide +kernel : ∀ t : Fin grid0.N, 25 ≤ t.val → win0_10.flush t = true)

/-! ## The memrefs the body is called with -/

abbrev mr0 (t : Fin cfg0.N) : Memref sig .tc .vmem S10000x128 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S1x400x10000 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S128x128 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x128 .f32 := win0_3.stage (cfg0.slots t 3)
abbrev wh3 (t : Fin cfg0.N) : (mr3 t).IsWhole := hstage0_3 ((cfg0.slots t 3).cast nbuf0_3)
abbrev mr4 (t : Fin cfg0.N) : Memref sig .tc .vmem S1x256 .f32 := win0_4.stage (cfg0.slots t 4)
abbrev wh4 (t : Fin cfg0.N) : (mr4 t).IsWhole := hstage0_4 ((cfg0.slots t 4).cast nbuf0_4)
abbrev mr5 (t : Fin cfg0.N) : Memref sig .tc .vmem S1x256 .f32 := win0_5.stage (cfg0.slots t 5)
abbrev wh5 (t : Fin cfg0.N) : (mr5 t).IsWhole := hstage0_5 ((cfg0.slots t 5).cast nbuf0_5)
abbrev mr6 (t : Fin cfg0.N) : Memref sig .tc .vmem S256x128 .f32 := win0_6.stage (cfg0.slots t 6)
abbrev wh6 (t : Fin cfg0.N) : (mr6 t).IsWhole := hstage0_6 ((cfg0.slots t 6).cast nbuf0_6)
abbrev mr7 (t : Fin cfg0.N) : Memref sig .tc .vmem S1x128 .f32 := win0_7.stage (cfg0.slots t 7)
abbrev wh7 (t : Fin cfg0.N) : (mr7 t).IsWhole := hstage0_7 ((cfg0.slots t 7).cast nbuf0_7)
abbrev mr8 (t : Fin cfg0.N) : Memref sig .tc .vmem S128x64 .f32 := win0_8.stage (cfg0.slots t 8)
abbrev wh8 (t : Fin cfg0.N) : (mr8 t).IsWhole := hstage0_8 ((cfg0.slots t 8).cast nbuf0_8)
abbrev mr9 (t : Fin cfg0.N) : Memref sig .tc .vmem S1x64 .f32 := win0_9.stage (cfg0.slots t 9)
abbrev wh9 (t : Fin cfg0.N) : (mr9 t).IsWhole := hstage0_9 ((cfg0.slots t 9).cast nbuf0_9)
abbrev mr10 (t : Fin cfg0.N) : Memref sig .tc .vmem S400x64 .f32 := win0_10.stage (cfg0.slots t 10)
abbrev wh10 (t : Fin cfg0.N) : (mr10 t).IsWhole := hstage0_10 ((cfg0.slots t 10).cast nbuf0_10)
/-- The two scratch buffers, whole. -/
abbrev scrH : Memref sig .tc .vmem S10000x128 .f32 := Memref.whole cc0_scratch0
abbrev scrT : Memref sig .tc .vmem S10000x128 .f32 := Memref.whole cc0_scratch1

/-- What the launch hands the region besides the windows: both scratch buffers at some contents and the
    generator register at some state. -/
theorem PhiA_eq (c : Dev nD) :
    (Pipeline.ΦA spec0 c : sProp 𝕄)
      = iprop(iprop((∃ d, owns (c : Thread nD τ) scrH fullShare d) ∗ (∃ d, owns (c : Thread nD τ) scrT fullShare d)) ∗ (∃ r, prngReg c r)) := by
  unfold Pipeline.ΦA; rw [scopedRest0_eq]; simp only [scrH, scrT, owns_whole]; try rfl

end Cert.Kernel.Hand

end
-- ==== Proof.BRunA.lean ====
/-
  The body at the grid's first point: it stores x·W1 + b1 into the whole first scratch, then (the point being a
  filling point) reads that scratch back, forms the first block of 400 rows of the second scratch and stores it
  over rows 0–399 of what the second scratch held; the third branch is not taken. The stores are found as pieces.
-/
import proofs.«131238_g51342039056724_cont_sun_c4_361_21_alg».proof.Proof.BBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point. The first scratch is handed over at any contents and comes back with its one piece written;
    the second comes at contents `xs1` and comes back with its one piece written over those; the result's buffer,
    at contents `xo`, is untouched. -/
noncomputable def runFirst (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    Σ' (LH : List (View.Piece (Elt F) S10000x128 .f32)) (LT : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (∃ f, arg12.view.loc (c : Thread nD τ) ↦[arg12.view.set]{fullShare} arg12.view.writes (Elt F) f LH) ∗ (arg13.view.loc (c : Thread nD τ) ↦[arg13.view.set]{fullShare} arg13.view.writes (Elt F) (harg13.unread xs1) LT)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg13.eq_unread hfs1
    obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexact HS1

end Cert.Kernel.Hand

end
-- ==== Proof.BRunB.lean ====
/-
  The body at a filling point after the first (points 1–24): the first scratch, at contents `xs0`, is only read;
  one block of 400 rows of the second scratch is formed from it and stored over what the second scratch held; the
  first and third branches are not taken.
-/
import proofs.«131238_g51342039056724_cont_sun_c4_361_21_alg».proof.Proof.BBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFill (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs0 : Vec F S10000x128 .f32) (xs1 : Vec F S10000x128 .f32) :
    Σ' (LT : List (View.Piece (Elt F) S10000x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ (arg13.view.loc (c : Thread nD τ) ↦[arg13.view.set]{fullShare} arg13.view.writes (Elt F) (harg13.unread xs1) LT)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0
    obtain rfl := harg13.eq_unread hfs1
    obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    iexact HS1

end Cert.Kernel.Hand

end
-- ==== Proof.BRunC.lean ====
/-
  The body at an emitting point (points 25–49): both scratch buffers are only read (the first not even that); the
  block of 400 rows of the result is formed from the adjacency block and the whole second scratch and stored into
  the result's staging buffer, covering it; the first two branches are not taken.
-/
import proofs.«131238_g51342039056724_cont_sun_c4_361_21_alg».proof.Proof.BBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runEmit (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : ¬inFill i) (hc2 : inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xs0 : Vec F S10000x128 .f32) (xs1 : Vec F S10000x128 .f32) :
    Σ' (LO : List (View.Piece (Elt F) S400x64 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LO) ∗ owns (c : Thread nD τ) arg12 fullShare xs0 ∗ owns (c : Thread nD τ) arg13 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    obtain rfl := harg12.eq_unread hfs0
    obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _; isplitr; · ipureintro; exact harg12.read_unread _
      iexact HS0
    iexists _; isplitr; · ipureintro; exact harg13.read_unread _
    iexact HS1

end Cert.Kernel.Hand

end
-- ==== Proof.BPieces.lean ====
/-
  What the three runs found, stated in closed form. Each store's payload is one of the body's four pure terms
  applied to what the loads read: a load of a whole buffer reads its contents, a load of a block of rows reads
  those rows, and a load that follows a store covering the buffer reads what was stored.
-/
import proofs.«131238_g51342039056724_cont_sun_c4_361_21_alg».proof.Proof.BRunA
import proofs.«131238_g51342039056724_cont_sun_c4_361_21_alg».proof.Proof.BRunB
import proofs.«131238_g51342039056724_cont_sun_c4_361_21_alg».proof.Proof.BRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

/-- A load of a whole buffer reads its contents. -/
theorem readAt_unread_whole {S : Shape} {e : EltTy} (M : Memref sig .tc .vmem S e) (h : M.IsWhole) (X : S.Idx → Elt F e)
    {off : Fin S.rank → ℕ} (hz : off = fun _ => 0) (inb : ∀ a, off a + S.size a ≤ S.size a) :
    View.readAt (Elt F) M.view (Rect.unit off S.size inb).toLoadRect (h.unread X) = X := by
  rw [View.readAt_eq_ld, h.read_unread, View.ld_unit_zero hz]

/-- A load of a rectangle reads the contents through the rectangle. -/
theorem readAt_unread_rect {S : Shape} {e : EltTy} (M : Memref sig .tc .vmem S e) (h : M.IsWhole) (X : S.Idx → Elt F e)
    (r : Rect S) : View.readAt (Elt F) M.view r.toLoadRect (h.unread X) = View.ld X r := by
  rw [View.readAt_eq_ld, h.read_unread]

/-- One store covering a whole buffer reads back as its payload, whatever the buffer held. -/
theorem read_writes_whole_unit {S : Shape} {e : EltTy} (v : View sig .tc .vmem S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz
  exact View.read_writes_whole v f w

/-- The block of 400 rows of a 10000-row array that a filling point works on. -/
def rowsOf (X : Vec F S10000x128 .f32) (i : grid0.Coords) (h : inFill i) : Vec F S400x128 .f32 :=
  View.ld X (Rect.unit (k0_off1 i) S400x128.size (k0_off1_inb i h))

/-- The block of the second scratch a filling point stores, from the point's input blocks and the first scratch. -/
def fillPay (i : grid0.Coords) (h : inFill i) (x1 : Vec F S1x400x10000 .f32) (x4 x5 : Vec F S1x256 .f32) (x6 : Vec F S256x128 .f32)
    (x7 : Vec F S1x128 .f32) (H : Vec F S10000x128 .f32) : Vec F S400x128 .f32 :=
  k0_pay2 (k0_pay4 x1 H (rowsOf H i h) x4 x5 x6) x7

theorem runEmit_O (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : ¬inFill i) (hc2 : inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xs0 xs1 : Vec F S10000x128 .f32) :
    (runEmit c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs0 xs1).1
      = [⟨Rect.unit ![0, 0] ![400, 64] inb_S400x64_S400x64_0_0, k0_pay3 x1 xs1 x8 x9⟩] := by
  unfold runEmit
  dsimp only
  sl_unfold_run_names
  rw [readAt_unread_whole arg2 harg2 x1 hz3, readAt_unread_whole arg13 harg13 xs1 hz2, readAt_unread_whole arg9 harg9 x8 hz2,
    readAt_unread_whole arg10 harg10 x9 hz2]

theorem runFill_T (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : ¬atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs0 xs1 : Vec F S10000x128 .f32) :
    (runFill c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs0 xs1).1
      = [⟨Rect.unit (k0_off1 i) ![400, 128] (k0_off1_inb i hc1), fillPay i hc1 x1 x4 x5 x6 x7 xs0⟩] := by
  unfold runFill
  dsimp only
  sl_unfold_run_names
  unfold fillPay rowsOf
  rw [readAt_unread_whole arg2 harg2 x1 hz3, readAt_unread_whole arg12 harg12 xs0 hz2, readAt_unread_rect arg12 harg12 xs0,
    readAt_unread_whole arg5 harg5 x4 hz2, readAt_unread_whole arg6 harg6 x5 hz2, readAt_unread_whole arg7 harg7 x6 hz2,
    readAt_unread_whole arg8 harg8 x7 hz2]

theorem runFirst_H (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs1).1
      = [⟨Rect.unit ![0, 0] ![10000, 128] inb_S10000x128_S10000x128_0_0, k0_pay1 x0 x2 x3⟩] := by
  unfold runFirst
  dsimp only
  sl_unfold_run_names
  rw [readAt_unread_whole arg1 harg1 x0 hz2, readAt_unread_whole arg3 harg3 x2 hz2, readAt_unread_whole arg4 harg4 x3 hz2]

theorem runFirst_T (c : Dev nD) (i : grid0.Coords) (arg1 : Memref sig .tc .vmem S10000x128 .f32) (harg1 : arg1.IsWhole) (arg2 : Memref sig .tc .vmem S1x400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S400x64 .f32) (harg11 : arg11.IsWhole) (arg12 : Memref sig .tc .vmem S10000x128 .f32) (harg12 : arg12.IsWhole) (arg13 : Memref sig .tc .vmem S10000x128 .f32) (harg13 : arg13.IsWhole) (hc0 : atFirst i) (hc1 : inFill i) (hc2 : ¬inEmit i)
    (x0 : Vec F S10000x128 .f32) (x1 : Vec F S1x400x10000 .f32) (x2 : Vec F S128x128 .f32) (x3 : Vec F S1x128 .f32) (x4 : Vec F S1x256 .f32) (x5 : Vec F S1x256 .f32) (x6 : Vec F S256x128 .f32) (x7 : Vec F S1x128 .f32) (x8 : Vec F S128x64 .f32) (x9 : Vec F S1x64 .f32) (xo : Vec F S400x64 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo xs1).2.1
      = [⟨Rect.unit (k0_off1 i) ![400, 128] (k0_off1_inb i hc1), fillPay i hc1 x1 x4 x5 x6 x7 (k0_pay1 x0 x2 x3)⟩] := by
  unfold runFirst
  dsimp only
  sl_unfold_run_names
  unfold fillPay rowsOf
  rw [readAt_unread_whole arg1 harg1 x0 hz2, readAt_unread_whole arg3 harg3 x2 hz2, readAt_unread_whole arg4 harg4 x3 hz2,
    readAt_unread_whole arg2 harg2 x1 hz3,
    readAt_unread_whole arg5 harg5 x4 hz2, readAt_unread_whole arg6 harg6 x5 hz2, readAt_unread_whole arg7 harg7 x6 hz2,
    readAt_unread_whole arg8 harg8 x7 hz2,
    View.readCov_unit_zero arg12.view hz2, View.readAt_eq_ld, View.read_writes_junk_eq_canon, View.canon_unit_zero hz2]

end Cert.Kernel.Hand

end
-- ==== Proof.BData.lean ====
/-
  What the two scratch buffers and the result's staging buffer hold from point to point, and the pipeline's
  proof data built from it. After point 0 the first scratch holds x·W1 + b1 (all rows) for the rest of the run.
  After filling point n, rows 400·j … 400·j+399 of the second scratch hold block j for every j ≤ n (the other rows
  hold whatever they held: nothing is said of them). From point 25 on the second scratch is the array whose block
  j is that block, and emitting point t stores one block of the result computed from it.
-/
import proofs.«131238_g51342039056724_cont_sun_c4_361_21_alg».proof.Proof.BPieces
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N50 : cfg0.N = 50 := N_0

/-- The first grid point. -/
def pt0 : Fin cfg0.N := ⟨0, by rw [N50]; omega⟩
/-- The grid point of filling step `j`. -/
def fillPt (j : Fin 25) : Fin cfg0.N := ⟨j.val, by rw [N50]; omega⟩
theorem fillPt_inFill (j : Fin 25) : inFill (grid0.coords (fillPt j)) := (inFill_iff (fillPt j)).mpr j.isLt

/-- The first scratch after the first point: the body's first payload of the (constant) blocks of x, W1, b1. -/
def Hval (c : Dev nD) : Vec F S10000x128 .f32 := k0_pay1 (iblk m c 0 pt0) (iblk m c 2 pt0) (iblk m c 3 pt0)

/-- Block `j` of the second scratch: what filling point `j` stores. -/
def Tblk (c : Dev nD) (j : Fin 25) : Vec F S400x128 .f32 :=
  fillPay (grid0.coords (fillPt j)) (fillPt_inFill j) (iblk m c 1 (fillPt j)) (iblk m c 4 (fillPt j)) (iblk m c 5 (fillPt j))
    (iblk m c 6 (fillPt j)) (iblk m c 7 (fillPt j)) (Hval m c)

/-- The second scratch once every block is stored: row 400·j + r is row r of block j. -/
def Tfull (c : Dev nD) : Vec F S10000x128 .f32 := fun y =>
  Tblk m c ⟨(y 0).val / 400, Nat.div_lt_of_lt_mul (y 0).isLt⟩ (ix2 ⟨(y 0).val % 400, Nat.mod_lt _ (by omega)⟩ (y 1))

/-- The second scratch holds blocks 0 … n in place (rows by rows, columns by columns). -/
def TOk (c : Dev nD) (n : ℕ) (X : Vec F S10000x128 .f32) : Prop :=
  ∀ (j : Fin 25), j.val ≤ n → ∀ (y : S10000x128.Idx) (x : S400x128.Idx),
    (y 0).val = 400 * j.val + (x 0).val → (y 1).val = (x 1).val → X y = Tblk m c j x

theorem TOk_Tfull (c : Dev nD) (n : ℕ) : TOk m c n (Tfull m c) := by
  intro j _ y x h0 h1
  have hx0 : (x 0).val < 400 := (x 0).isLt
  unfold Tfull
  have e1 : (⟨(y 0).val / 400, Nat.div_lt_of_lt_mul (y 0).isLt⟩ : Fin 25) = j := Fin.ext (by
    show (y 0).val / 400 = j.val
    omega)
  have e2 : (ix2 ⟨(y 0).val % 400, Nat.mod_lt _ (by omega)⟩ (y 1) : S400x128.Idx) = x := by
    rw [eq_ix2 x]
    congr 1
    · exact Fin.ext (by show (y 0).val % 400 = (x 0).val; omega)
    · exact Fin.ext h1
  rw [e1, e2]

/-- Once all twenty-five blocks are in place the second scratch is `Tfull`. -/
theorem eq_Tfull_of_TOk (c : Dev nD) (n : ℕ) (hn : 24 ≤ n) (X : Vec F S10000x128 .f32) (h : TOk m c n X) : X = Tfull m c := by
  funext y
  have hy : (y 0).val < 10000 := (y 0).isLt
  exact h ⟨(y 0).val / 400, Nat.div_lt_of_lt_mul (y 0).isLt⟩ (by show (y 0).val / 400 ≤ n; omega) y
    (ix2 ⟨(y 0).val % 400, Nat.mod_lt _ (by omega)⟩ (y 1))
    (by show (y 0).val = 400 * ((y 0).val / 400) + (y 0).val % 400; omega) rfl

/-- The block of the result emitting point `t` stores. -/
def Oblk (c : Dev nD) (t : Fin cfg0.N) : Vec F S400x64 .f32 :=
  k0_pay3 (iblk m c 1 t) (Tfull m c) (iblk m c 8 t) (iblk m c 9 t)

/-- Storing block `n` over rows 400·n … of contents that hold blocks below `n` gives contents that hold blocks up to `n`. -/
theorem TOk_step (c : Dev nD) (n : ℕ) (hn : n < 25) (X : Vec F S10000x128 .f32) (hX : ∀ k, n = k + 1 → TOk m c k X)
    (M : Memref sig .tc .vmem S10000x128 .f32) (hM : M.IsWhole) (off : Fin 2 → ℕ) (hoff : off = ![400 * n, 0])
    (inb : ∀ a, off a + S400x128.size a ≤ S10000x128.size a) :
    TOk m c n (M.view.read (Elt F) (M.view.writes (Elt F) (hM.unread X) [⟨Rect.unit off S400x128.size inb, Tblk m c ⟨n, hn⟩⟩])) := by
  intro j hj y x h0 h1
  have hx0 : (x 0).val < 400 := (x 0).isLt
  by_cases hjn : j.val = n
  · have ej : j = ⟨n, hn⟩ := Fin.ext hjn
    subst ej
    exact View.read_writes_cons_rows_of_mem M.view (hM.unread X) inb (Tblk m c ⟨n, hn⟩) [] y x hoff h0 h1
  · have hlt : j.val < n := by omega
    obtain ⟨k, rfl⟩ : ∃ k, n = k + 1 := ⟨n - 1, by omega⟩
    rw [View.read_writes_cons_rows_of_not_mem M.view (hM.unread X) inb (Tblk m c ⟨k + 1, hn⟩) [] y hoff (W := 400) rfl (by omega)]
    rw [View.writes_nil, hM.read_unread]
    exact hX k rfl j (by omega) y x h0 h1

/-! ## The invariant between points -/

/-- Before the first point both scratch buffers hold anything; afterwards the first holds `Hval` and the second
    holds the blocks stored so far. -/
def Phi (c : Dev nD) : (n : ℕ) → n ≤ cfg0.N → sProp 𝕄
  | 0, _ => Pipeline.ΦA spec0 c
  | n + 1, _ => iprop(iprop(owns (c : Thread nD τ) scrH fullShare (Hval m c) ∗ (∃ X, ⌜TOk m c n X⌝ ∗ owns (c : Thread nD τ) scrT fullShare X)) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n + 1 ≤ cfg0.N) :
    Phi m c (n + 1) hn = iprop(iprop(owns (c : Thread nD τ) scrH fullShare (Hval m c) ∗ (∃ X, ⌜TOk m c n X⌝ ∗ owns (c : Thread nD τ) scrT fullShare X)) ∗ (∃ r, prngReg c r)) := rfl
theorem Phi_pos (c : Dev nD) (n : ℕ) (h : n ≤ cfg0.N) (hz : n ≠ 0) :
    Phi m c n h = iprop(iprop(owns (c : Thread nD τ) scrH fullShare (Hval m c) ∗ (∃ X, ⌜TOk m c (n - 1) X⌝ ∗ owns (c : Thread nD τ) scrT fullShare X)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Oblk m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = Oblk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

end Cert.Kernel.Hand

end
-- ==== Proof.BBody.lean ====
/-
  The body obligation: at every grid point the body, run on the windows' current blocks and on the scratch
  buffers as the invariant describes them, re-establishes the invariant one point later and leaves every window's
  buffer as the proof data says. Three cases by the point: the first point, a later filling point, an emitting point.
-/
import proofs.«131238_g51342039056724_cont_sun_c4_361_21_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d))
    ∗ (∃ d, owns (c : Thread nD τ) (mr9 t) fullShare ((dats m 0 c).before 9 t d))
    ∗ (∃ d, owns (c : Thread nD τ) (mr10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Phi m c (t.val + 1) t.isLt from rfl, Phi_succ]
  have hN : t.val < 50 := lt_of_lt_of_eq t.isLt N50
  rw [show (dats m 0 c).leavesExact 0 t = owns (c : Thread nD τ) (mr0 t) fullShare ((dats m 0 c).after 0 t) from by
    unfold Dat.leavesExact; rw [live0 t], after_0]
  rw [show (dats m 0 c).leavesExact 1 t = owns (c : Thread nD τ) (mr1 t) fullShare ((dats m 0 c).after 1 t) from by
    unfold Dat.leavesExact; rw [live1 t], after_1]
  rw [show (dats m 0 c).leavesExact 2 t = owns (c : Thread nD τ) (mr2 t) fullShare ((dats m 0 c).after 2 t) from by
    unfold Dat.leavesExact; rw [live2 t], after_2]
  rw [show (dats m 0 c).leavesExact 3 t = owns (c : Thread nD τ) (mr3 t) fullShare ((dats m 0 c).after 3 t) from by
    unfold Dat.leavesExact; rw [live3 t], after_3]
  rw [show (dats m 0 c).leavesExact 4 t = owns (c : Thread nD τ) (mr4 t) fullShare ((dats m 0 c).after 4 t) from by
    unfold Dat.leavesExact; rw [live4 t], after_4]
  rw [show (dats m 0 c).leavesExact 5 t = owns (c : Thread nD τ) (mr5 t) fullShare ((dats m 0 c).after 5 t) from by
    unfold Dat.leavesExact; rw [live5 t], after_5]
  rw [show (dats m 0 c).leavesExact 6 t = owns (c : Thread nD τ) (mr6 t) fullShare ((dats m 0 c).after 6 t) from by
    unfold Dat.leavesExact; rw [live6 t], after_6]
  rw [show (dats m 0 c).leavesExact 7 t = owns (c : Thread nD τ) (mr7 t) fullShare ((dats m 0 c).after 7 t) from by
    unfold Dat.leavesExact; rw [live7 t], after_7]
  rw [show (dats m 0 c).leavesExact 8 t = owns (c : Thread nD τ) (mr8 t) fullShare ((dats m 0 c).after 8 t) from by
    unfold Dat.leavesExact; rw [live8 t], after_8]
  rw [show (dats m 0 c).leavesExact 9 t = owns (c : Thread nD τ) (mr9 t) fullShare ((dats m 0 c).after 9 t) from by
    unfold Dat.leavesExact; rw [live9 t], after_9]
  rw [Phi_castSucc m c t]
  by_cases hz : t.val = 0
  · -- the first point
    have h1 : t.val < 25 := by omega
    have e0 : t = pt0 := Fin.ext hz
    rw [(dats m 0 c).leavesExact_idle 10 t (idle10_fill t h1) (noflush10_fill t h1)]
    rw [Phi_zero m c _ _ hz, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HS1 with ⟨%X0, HS1⟩
    iapply ((runFirst c (grid0.coords t) _ _ _ _ _ _ _ _ _ _ _ _ _ _ _ _ _ _ _ _ _ _ _ _ _ _ ((atFirst_iff t).mpr hz) ((inFill_iff t).mpr h1) (fun h => absurd ((inEmit_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) X0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%fH, HS0⟩, HS1⟩
    isplitl [HS0 HS1 Hg]
    · isplitl [HS0 HS1]
      · isplitl [HS0]
        · unfold owns; iexists _; isplitr
          swap; · iexact HS0
          ipureintro
          rw [runFirst_H, read_writes_whole_unit _ _ hz2]
          subst e0; rfl
        · iexists _; isplitr
          swap
          · unfold owns; iexists _; isplitr
            swap; · iexact HS1
            ipureintro; rfl
          · ipureintro
            rw [runFirst_T]
            subst e0
            exact TOk_step m c 0 (by omega) X0 (fun k hk => absurd hk (by omega)) scrT (Memref.isWhole_whole _) _ (off1_eq pt0 (by decide)) _
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val < 25
    · -- a later filling point
      rw [(dats m 0 c).leavesExact_idle 10 t (idle10_fill t h1) (noflush10_fill t h1)]
      rw [Phi_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      icases HS1 with ⟨%X0, %hX0, HS1⟩
      iapply ((runFill c (grid0.coords t) _ _ _ _ _ _ _ _ _ _ _ _ _ _ _ _ _ _ _ _ _ _ _ _ _ _ (fun h => hz ((atFirst_iff t).mp h)) ((inFill_iff t).mpr h1) (fun h => absurd ((inEmit_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (Hval m c) X0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            · ipureintro
              rw [runFill_T]
              obtain ⟨n, hn⟩ := t
              have hn25 : n < 25 := h1
              exact TOk_step m c n hn25 X0 (fun k hk => by
                have : n - 1 = k := by omega
                exact this ▸ hX0) scrT (Memref.isWhole_whole _) _ (off1_eq ⟨n, hn⟩ h1) _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- an emitting point
      have h2 : 25 ≤ t.val := by omega
      rw [show (dats m 0 c).leavesExact 10 t = owns (c : Thread nD τ) (mr10 t) fullShare ((dats m 0 c).after 10 t) from by
        unfold Dat.leavesExact; rw [live10_emit t h2], after_10]
      rw [Phi_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      icases HS1 with ⟨%X0, %hX0, HS1⟩
      have eX : X0 = Tfull m c := eq_Tfull_of_TOk m c (t.val - 1) (by omega) X0 hX0
      subst eX
      iapply ((runEmit c (grid0.coords t) _ _ _ _ _ _ _ _ _ _ _ _ _ _ _ _ _ _ _ _ _ _ _ _ _ _ (fun h => hz ((atFirst_iff t).mp h)) (fun h => h1 ((inFill_iff t).mp h)) ((inEmit_iff t).mpr h2) (iblk m c 0 t) (iblk m c 1 t) (iblk m c 2 t) (iblk m c 3 t) (iblk m c 4 t) (iblk m c 5 t) (iblk m c 6 t) (iblk m c 7 t) (iblk m c 8 t) (iblk m c 9 t) (Hval m c) (Tfull m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iintro ⟨H0, H1, H2, H3, H4, H5, H6, H7, H8, H9, ⟨%fO, H10⟩, HS0, HS1⟩
      isplitl [HS0 HS1 Hg]
      · isplitl [HS0 HS1]
        · isplitl [HS0]
          · iexact HS0
          · iexists _; isplitr
            swap; · iexact HS1
            ipureintro; exact TOk_Tfull m c _
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro
      rw [runEmit_O, read_writes_whole_unit _ _ hz2]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 50 := N50; omega), PhiA_eq]
  iintro ⟨⟨HS0, ⟨%X, -, HS1⟩⟩, Hg⟩
  isplitl [HS0 HS1]
  · isplitl [HS0]
    · iexists _; iexact HS0
    iexists _; iexact HS1
  iexact Hg

end Cert.Kernel.Hand

end
-- ==== Proof.BRun.lean ====
/-
  The frame run: every weakly fair execution of the program terminates without a fault, each windowed array ends
  at what the proof data computes (the inputs unchanged, the result written block by block), and every other
  unscoped buffer ends as the region found it. The frame claim follows.
-/
import proofs.«131238_g51342039056724_cont_sun_c4_361_21_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.Bridge.lean ====
/-
  The five claims of the certificate, from the three runs.

  The kernel, as printed and read over the extended reals, terminates with its ten arguments as they were; over
  the extended reals its result array ends at the specification's function of the arguments (Proof/Spec.lean).
  The reference's run ends with its result at the reference's own term of the arguments, and that term is the
  specification's function index by index (Proof/RefSpec.lean): the products are sums over the shared axis on
  both sides, the guard of the reference's variance is decided (256 − 0 is positive), and the reference's
  quotient by sqrt (var + eps) is the kernel's product with rsqrt (var + eps), since var + eps is positive
  whatever the entries. From memories that agree on the arguments the two results are therefore one array.
-/
import proofs.«131238_g51342039056724_cont_sun_c4_361_21_alg».proof.Defs
import proofs.«131238_g51342039056724_cont_sun_c4_361_21_alg».proof.Proof.Gen.Kernel
import proofs.«131238_g51342039056724_cont_sun_c4_361_21_alg».proof.Proof.Gen.KernelIdeal
import proofs.«131238_g51342039056724_cont_sun_c4_361_21_alg».proof.Proof.Gen.ReferenceIdeal
import proofs.«131238_g51342039056724_cont_sun_c4_361_21_alg».proof.Proof.Gen.Pre_finite_inputs
import proofs.«131238_g51342039056724_cont_sun_c4_361_21_alg».proof.Proof.RefFrame
import proofs.«131238_g51342039056724_cont_sun_c4_361_21_alg».proof.Proof.RefSpec
import proofs.«131238_g51342039056724_cont_sun_c4_361_21_alg».proof.Proof.KValue
import proofs.«131238_g51342039056724_cont_sun_c4_361_21_alg».proof.Proof.KRun
import proofs.«131238_g51342039056724_cont_sun_c4_361_21_alg».proof.Proof.BRun

noncomputable section

open Idealize.ShloMosaic Idealize.ShloMosaic.TcCoe Idealize.SL.Sem

/-! ## The claims -/

namespace Cert.Proof.Claims

/-- The kernel as printed runs and leaves its arguments as they were. -/
theorem frame_p : Cert.frame_Kernel (hKernel := Cert.Kernel.Gen.facts) (hPre_finite_inputs := Cert.Pre_finite_inputs.Gen.facts) :=
  fun m ρ _ => Cert.Kernel.Hand.frame (F := Bits) m ρ

/-- So does the kernel read over the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run read back with the result's conjunct dropped. -/
theorem frame_ri : Cert.frame_ReferenceIdeal (hReferenceIdeal := Cert.ReferenceIdeal.Gen.facts) (hPre_finite_inputs := Cert.Pre_finite_inputs.Gen.facts) :=
  Cert.ReferenceIdeal.RefValue.frame_ri

/-- The idealization rewrote no operation: there is nothing to preserve. -/
theorem preserves : Cert.preserves_Kernel_KernelIdeal := trivial

/-- Over the extended reals, from memories that agree on the ten arguments, the kernel's result array ends at
    the specification's function of the arguments and so does the reference's: the reference's term is that
    function index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9⟩ := hagree c
  rw [Cert.ReferenceIdeal.RefValue.refTerm_eq_spec, h0, h1, h2, h3, h4, h5, h6, h7, h8, h9]

end Cert.Proof.Claims

end
-- ==== Proof.lean ====
/-
  The proof of the certificate's claim, for a two-layer graph network with a layer normalisation.

  THE COMPUTATION. With x (10000 × 128), a stack adjs of two 10000 × 10000 matrices and the weights W1, b1, g, b,
  W2, b2, W3, b3:  h = x·W1 + b1;  cat = [h | adjs[0]·h] (10000 × 256);  mean and var the mean and the biased
  variance of each row of cat;  ln = (cat − mean) · (var + eps)^(−1/2) · g + b;  t = max ln 0 · W2 + b2;
  out = max (adjs[1]·t) 0 · W3 + b3 (10000 × 64).
  The kernel computes this in the fifty sequential points of one grid: point 0 also fills a first scratch array
  with all of h, points 0–24 each fill one block of 400 rows of a second scratch array with t, and points 25–49
  each produce one block of 400 rows of the result from the whole of t. The reference computes it array by array,
  its variance in an outlined function that guards the quotient by "count − 0 > 0", a not-a-number on the other
  branch.

  WHY THE TWO AGREE OVER THE EXTENDED REALS. There every operation is exact: a matrix product read at an index
  is the sum over the shared axis of the products and a row reduction is the sum of the row, in whatever order
  either side adds; so both sides are read index by index against one specification (Proof/Spec.lean). Three
  points need an argument.
  * The kernel's blocks: row r of block j is row 400·j + r of the array, and a scratch array written block by
    block reads back as one function of its index (all of h, all of t).
  * The reference's guard: 256 − 0 = 256 is positive, so the select keeps the quotient.
  * The kernel multiplies the deviations by rsqrt (var + eps) where the reference divides them by
    sqrt (var + eps). For every c and every v with 0 < v ≤ ⊤ one has c · rsqrt v = c / sqrt v: at a positive
    real both are c · (√v)⁻¹, and at ⊤ both are c · 0 (`Cert.Spec.mul_rsqrt_eq_div_sqrt`). And v = var + eps
    is positive with NO finiteness assumption on the entries: a square a · a is nonnegative for every extended
    real a, the infinities included; a finite sum of nonnegatives is nonnegative; dividing by 256 keeps it so;
    and eps is a positive real (`Cert.Spec.veps_pos`).

  THE CLAIMS (Proof/Bridge.lean). The kernel as printed, the kernel over the extended reals and the reference
  each terminate with their arguments unchanged; the idealization rewrote no operation, so there is nothing to
  preserve; and over the extended reals, from memories that agree on the arguments, the kernel's result and the
  reference's are the specification's one array. The witnesses of the programs' stated facts are the generated
  instances.
-/
import proofs.«131238_g51342039056724_cont_sun_c4_361_21_alg».proof.Defs
import proofs.«131238_g51342039056724_cont_sun_c4_361_21_alg».proof.Proof.Bridge
import proofs.«131238_g51342039056724_cont_sun_c4_361_21_alg».proof.Proof.Gen.Kernel
import proofs.«131238_g51342039056724_cont_sun_c4_361_21_alg».proof.Proof.Gen.Kernel.Skeleton
import proofs.«131238_g51342039056724_cont_sun_c4_361_21_alg».proof.Proof.Gen.Kernel.Launch
import proofs.«131238_g51342039056724_cont_sun_c4_361_21_alg».proof.Proof.Gen.Kernel.Points
import proofs.«131238_g51342039056724_cont_sun_c4_361_21_alg».proof.Proof.Gen.Kernel.Frame
import proofs.«131238_g51342039056724_cont_sun_c4_361_21_alg».proof.Proof.Gen.KernelIdeal
import proofs.«131238_g51342039056724_cont_sun_c4_361_21_alg».proof.Proof.Gen.KernelIdeal.Skeleton
import proofs.«131238_g51342039056724_cont_sun_c4_361_21_alg».proof.Proof.Gen.KernelIdeal.Launch
import proofs.«131238_g51342039056724_cont_sun_c4_361_21_alg».proof.Proof.Gen.KernelIdeal.Points
import proofs.«131238_g51342039056724_cont_sun_c4_361_21_alg».proof.Proof.Gen.KernelIdeal.Frame
import proofs.«131238_g51342039056724_cont_sun_c4_361_21_alg».proof.Proof.Gen.ReferenceIdeal
import proofs.«131238_g51342039056724_cont_sun_c4_361_21_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
